-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![256, 512]⟩ ⟨2, ![512, 512]⟩ (Layout.meshBlock [2, 2] ![[0], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![512, 256]⟩ ⟨2, ![512, 512]⟩ (Layout.meshBlock [2, 2] ![[], [0]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S256x512 : Shape := ⟨2, ![256, 512]⟩
abbrev S_ : Shape := ⟨0, ![]⟩

class Facts : Prop where
  bcast_S_S256x512 : S_.BroadcastsInDim S256x512 (![] : Fin 0 → Fin S256x512.rank)
  reducesTo_S256x512_S_d0_1 : S256x512.ReducesTo [0, 1] S_
  h_S_ : 0 < S_.numel

variable [Facts]

def fn {F : FTy → Type} [FloatOps F] (main_arg0 : FVec F S256x512 .f32) : IVec S_ 1 :=
  let main_v0 : FVec F S256x512 .f32 := Host.absf main_arg0
  let main_cst : FVec F S_ .f32 := constant S_ .f32 0x7F800000#32
  let main_v1 : FVec F S256x512 .f32 := broadcastInDim S256x512 ![] bcast_S_S256x512 main_cst
  let main_v2 : IVec S256x512 1 := cmpf .olt main_v0 main_v1
  let main_c : IVec S_ 1 := constantI S_ 1 1#1
  let main_v3 : IVec S_ 1 := (fun x v => Host.reduce IntOp.andi x v reducesTo_S256x512_S_d0_1 h_S_) main_v2 main_c
  main_v3
-- ==== Pre_finite_inputs_ReferenceIdeal.lean ====
abbrev S512x512 : Shape := ⟨2, ![512, 512]⟩
abbrev S_ : Shape := ⟨0, ![]⟩

class Facts : Prop where
  bcast_S_S512x512 : S_.BroadcastsInDim S512x512 (![] : Fin 0 → Fin S512x512.rank)
  reducesTo_S512x512_S_d0_1 : S512x512.ReducesTo [0, 1] S_
  h_S_ : 0 < S_.numel

variable [Facts]

def fn {F : FTy → Type} [FloatOps F] (main_arg0 : FVec F S512x512 .f32) : IVec S_ 1 :=
  let main_v0 : FVec F S512x512 .f32 := Host.absf main_arg0
  let main_cst : FVec F S_ .f32 := constant S_ .f32 0x7F800000#32
  let main_v1 : FVec F S512x512 .f32 := broadcastInDim S512x512 ![] bcast_S_S512x512 main_cst
  let main_v2 : IVec S512x512 1 := cmpf .olt main_v0 main_v1
  let main_c : IVec S_ 1 := constantI S_ 1 1#1
  let main_v3 : IVec S_ 1 := (fun x v => Host.reduce IntOp.andi x v reducesTo_S512x512_S_d0_1 h_S_) main_v2 main_c
  main_v3
-- ==== Kernel.lean ====
abbrev S256x512 : Shape := ⟨2, ![256, 512]⟩
abbrev S512x256 : Shape := ⟨2, ![512, 256]⟩
abbrev S_ : Shape := ⟨0, ![]⟩
abbrev S256x256 : Shape := ⟨2, ![256, 256]⟩

abbrev nBuf : Space → Nat
  | .hbm => 2
  | .vmem => 1
  | .smem => 0
  | _ => 0

abbrev bufTy : (tb : Table) → Fin (tcTables nBuf tb) → BufTy
  | .hbm, ⟨0, _⟩ => ⟨S256x512, .f32⟩
  | .hbm, ⟨1, _⟩ => ⟨S512x256, .f32⟩
  | .local _ .vmem, ⟨0, _⟩ => ⟨S256x512, .f32⟩
  | _, _ => ⟨S256x512, .f32⟩

abbrev bufScoped : (cs : CoreSpace) → Fin (nBuf (.core cs)) → Bool
  | .vmem, ⟨0, _⟩ => true
  | _, _ => false

abbrev semScoped : Fin 1 → Bool
  | ⟨0, _⟩ => false
  | _ => false

abbrev dmaSemScoped : Fin 4 → Bool
  | ⟨0, _⟩ => true
  | ⟨1, _⟩ => true
  | ⟨2, _⟩ => true
  | ⟨3, _⟩ => true
  | _ => false

abbrev sig : RefSig :=
  { ofTc nBuf bufTy 1 4 bufScoped semScoped dmaSemScoped tileCredit tileCredit_eq_zero tileCredit_pos with
    barrierSem := RefSig.barrierTable [(0, 0)]
    barrierSem_unscoped := RefSig.barrierTable_unscoped [(0, 0)] semScoped rfl }

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_sem0_0 : DmaSem sig := 0
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_2 v2
  let c2_i32_4 : BitVec 32 := 2#32
  let v8 : BitVec 32 := Scalar.muli v7 c2_i32_4
  let v9 : BitVec 32 := Scalar.addi c0_i32 v8
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_5 : BitVec 32 := 1#32
  let v10 : BitVec 32 := Scalar.muli v5 c1_i32_5
  let v11 : BitVec 32 := Scalar.addi v9 v10
  v11.toNat
def k0_off1 (d0 : Dev nD) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32_8 : BitVec 32 := 256#32
  let v14 : BitVec 32 := Scalar.muli v2 c256_i32_8
  let c0_i32_13 : BitVec 32 := 0#32
  ![v14.toNat, 0]
def k0_off2 (d0 : Dev nD) : Fin 2 → Nat :=
  let c0_i32_14 : BitVec 32 := 0#32
  let c1_i32_7 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v12 : BitVec 32 := Scalar.subi c1_i32_7 v2
  let c256_i32 : BitVec 32 := 256#32
  let v13 : BitVec 32 := Scalar.muli v12 c256_i32
  ![0, v13.toNat]
def k0_dev2 (d0 : Dev nD) : Nat :=
  let c0_i32_11 : BitVec 32 := 0#32
  let c1_i32_9 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v15 : BitVec 32 := Scalar.subi c1_i32_9 v2
  let c2_i32_10 : BitVec 32 := 2#32
  let v16 : BitVec 32 := Scalar.muli v15 c2_i32_10
  let v17 : BitVec 32 := Scalar.addi c0_i32_11 v16
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_12 : BitVec 32 := 1#32
  let v18 : BitVec 32 := Scalar.muli v5 c1_i32_12
  let v19 : BitVec 32 := Scalar.addi v17 v18
  v19.toNat
def k0_off3 (d0 : Dev nD) : Fin 2 → Nat :=
  let c0_i32_18 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32_15 : BitVec 32 := 256#32
  let v22 : BitVec 32 := Scalar.muli v2 c256_i32_15
  ![0, v22.toNat]
abbrev stage0_0 : Fin 1 → Memref sig .tc .vmem S256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

class Facts₀ : Prop where
  hamt_1 : (1#32 : BitVec 32).msb = false
  hcc0_scratch0 : 1 + S_.numel ≤ 4
  hcc0_scratch1 : 2 + S_.numel ≤ 4
  hcc0_scratch2 : 3 + S_.numel ≤ 4
  k0_dev1_lt : ∀ d0 : Dev nD, (k0_dev1 d0) < nD
  k0_off1_inb : ∀ d0 : Dev nD, ∀ a, (k0_off1 d0) a + S256x256.size a ≤ S512x256.size a
  k0_off2_inb : ∀ d0 : Dev nD, ∀ a, (k0_off2 d0) a + S256x256.size a ≤ S256x512.size a
  k0_dev2_lt : ∀ d0 : Dev nD, (k0_dev2 d0) < nD
  k0_off3_inb : ∀ d0 : Dev nD, ∀ a, (k0_off3 d0) a + S256x256.size a ≤ S256x512.size a
  hstage0_0 : ∀ j, (stage0_0 j).IsWhole

variable [Facts₀]

abbrev cc0_scratch0 : DmaSems sig S_ := SemArray.consecutive 1 S_ hcc0_scratch0
abbrev cc0_scratch1 : DmaSems sig S_ := SemArray.consecutive 2 S_ hcc0_scratch1
abbrev cc0_scratch2 : DmaSems sig S_ := SemArray.consecutive 3 S_ hcc0_scratch2

abbrev win0_0 : Pipeline.Window sig grid0 :=
  Pipeline.Window.whole (Memref.whole main_arg0) false false (stage0_0 0) (sem0_0 0) (Memref.isWhole_whole _) (hstage0_0 0)

abbrev win0 : Fin 1 → Pipeline.Window sig grid0 := fun | 0 => win0_0 | ⟨_ + 1, h⟩ => absurd h (Nat.not_lt.2 (Nat.le_add_left _ _))
abbrev spec0 : Fin 1 → Pipeline.WinSpec sig grid0.rank := fun w => (win0 w).toWinSpec

class Facts : Prop extends Facts₀ where

variable [Facts]
-- ==== ReferenceIdeal.lean ====
abbrev S512x512 : Shape := ⟨2, ![512, 512]⟩

abbrev nBuf : Space → Nat
  | .hbm => 1
  | .vmem => 0
  | .smem => 0
  | _ => 0

abbrev bufTy : (tb : Table) → Fin (tcTables nBuf tb) → BufTy
  | .hbm, ⟨0, _⟩ => ⟨S512x512, .f32⟩
  | _, _ => ⟨S512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]

class Facts₀ : Prop where

variable [Facts₀]

class Facts : Prop extends Facts₀ where

variable [Facts]
-- ==== Proof.LibViewWrite.lean ====
/-
# Writing one payload through one view over two different buffers

A general fact about `View.write`, independent of any program: a write through a view on the full mask determines
the buffer's elements under the view, whatever the buffer held before. It is what lets a points-to assertion for the
elements under a view be restated at any contents that agree with the written ones there, for example when a copy's
destination was handed over at unknown contents.
-/
import Idealize.ShloMosaic.Signature.View

namespace Cert.Lib

open Idealize.ShloMosaic

/-- Two writes of the same payload `w` through the same view `v` on the full mask, over buffers `f` and `f'`, agree at
    every element under the view: there both hold the payload's value at the view index that embeds to the element. -/
theorem write_univ_congr_of_mem_set {sig : RefSig} {κ : Kind} {sp : Space} {s : Shape} {e : EltTy} {Val : EltTy → Type}
    (v : View sig κ sp s e) (f f' : v.ty.Contents Val) (w : s.Idx → Val e) {i : v.ty.Idx} (hi : i ∈ v.set) :
    v.write Val f w Finset.univ i = v.write Val f' w Finset.univ i := by
  obtain ⟨x, -, rfl⟩ := Finset.mem_map.mp hi
  rw [View.write_emb_of_mem _ _ (Finset.mem_univ x), View.write_emb_of_mem _ _ (Finset.mem_univ x)]

end Cert.Lib
-- ==== Proof.KernelSched.lean ====
/-
# The exchange protocol of the 2 × 2 all-to-all, device by device

Device `c` sits at mesh position (c / 2, c % 2) and holds rows [256 (c / 2), 256 (c / 2) + 256) of the 512 × 512 array
`x` in its staging buffer. Its result is a 512 × 256 array. The kernel exchanges halves between the two devices of a
mesh column, `c` and `peer c` (the device at (1 - c / 2, c % 2); `peer` is an involution):
* it signals `peer c`'s barrier semaphore once and waits for one unit on its own;
* it copies the column half [256 (1 - c / 2), +256) of its staging buffer into rows [256 (c / 2), +256) of
  `peer c`'s result (crediting its own send semaphore and `peer c`'s receive semaphore);
* it copies the column half [256 (c / 2), +256) of its staging buffer into rows [256 (c / 2), +256) of its own result
  (crediting its local semaphore), and waits for that copy;
* it waits on its send semaphore and on its receive semaphore.
The rows of the result a device writes itself and the rows its peer writes are complementary halves, so nothing races.

Every semaphore has one round with one duty. The barrier duty of `c` is paid by `peer c`'s signal and hands `c` the
rows of `peer c`'s result that `c`'s transfer will write; the receive duty of `c` is paid by `peer c`'s transfer and
hands `c` those rows of its own result, written; the send duty returns the source half of the staging buffer; the
local duty returns the other source half and the rows written locally.
-/
import proofs.«900017_g7700000000000018_dist_a2a_v7x_xy2x2_x_m256_n256_f32_1_alg».proof.Proof.Gen.Kernel
import proofs.«900017_g7700000000000018_dist_a2a_v7x_xy2x2_x_m256_n256_f32_1_alg».proof.Proof.Gen.Kernel.Skeleton
import proofs.«900017_g7700000000000018_dist_a2a_v7x_xy2x2_x_m256_n256_f32_1_alg».proof.Proof.Gen.Kernel.Launch
import proofs.«900017_g7700000000000018_dist_a2a_v7x_xy2x2_x_m256_n256_f32_1_alg».proof.Proof.Gen.Kernel.Points
import proofs.«900017_g7700000000000018_dist_a2a_v7x_xy2x2_x_m256_n256_f32_1_alg».proof.Proof.Gen.Kernel.Frame
import Idealize.ShloMosaic.Lib.Pipeline.Launch
import Idealize.ShloMosaic.Lib.Pipeline.Kit
import Idealize.ShloMosaic.Lib.Pipeline.Value
import Idealize.ShloMosaic.Lib.Tactic
import proofs.«900017_g7700000000000018_dist_a2a_v7x_xy2x2_x_m256_n256_f32_1_alg».proof.Proof.LibViewWrite

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy of the rounds algebra and the protocol's -/

abbrev UU : Type := UR sig nD τ × UR sig nD τ

local notation "𝕄" => MT nD τ sig Unit (Elt F) ℕ UU ℕ

abbrev EP : Emb (UR sig nD τ) (MT nD τ sig Unit (Elt F) ℕ UU ℕ) := embL
abbrev ER : Emb (UR sig nD τ) (MT nD τ sig Unit (Elt F) ℕ UU ℕ) := embR

variable (m : (ℓ : Loc nD τ sig) → Buf (Elt F) ℓ)

/-! ## The column mate -/

/-- The other device of `c`'s mesh column: mesh position (1 - c / 2, c % 2). -/
def peer (c : Dev nD) : Dev nD := ⟨((c.val % 2) + 2) - 2 * (c.val / 2), by have h : c.val < 4 := c.isLt; show _ < 4; omega⟩

theorem peer_peer (c : Dev nD) : peer (peer c) = c := by revert c; decide
theorem peer_ne (c : Dev nD) : peer c ≠ c := by revert c; decide
theorem peer_half (c : Dev nD) : (peer c).val / 2 = 1 - c.val / 2 := by revert c; decide
theorem half_le (c : Dev nD) : c.val / 2 ≤ 1 := by revert c; decide

/-- Both device-id chains of the kernel (the signal's and the transfer's) name `peer c`. -/
theorem dev1_eq (c : Dev nD) : (⟨k0_dev1 c, k0_dev1_lt c⟩ : Dev nD) = peer c := Fin.ext (k0_dev1_eq c)
theorem dev2_eq (c : Dev nD) : (⟨k0_dev2 c, k0_dev2_lt c⟩ : Dev nD) = peer c := Fin.ext (k0_dev2_eq c)

def swap : Dev nD ≃ Dev nD := ⟨peer, peer, peer_peer, peer_peer⟩

/-! ## The memrefs, their halves, and the cells -/

abbrev xM : Memref sig .tc .vmem S256x512 .f32 := Memref.whole cc0_stg0_0
abbrev oM : Memref sig .tc .hbm S512x256 .f32 := Memref.whole main_v1

/-- Rows [256 (c / 2), +256) of a result array: where device `c`'s two copies write (its own result, and `peer c`'s). -/
abbrev rO (c : Dev nD) : Rect S512x256 := Rect.unit (s := S512x256) (k0_off1 c) S256x256.size (k0_off1_inb c)
/-- Columns [256 (1 - c / 2), +256) of the staging buffer: the source of the transfer to `peer c`. -/
abbrev rR (c : Dev nD) : Rect S256x512 := Rect.unit (s := S256x512) (k0_off2 c) S256x256.size (k0_off2_inb c)
/-- Columns [256 (c / 2), +256) of the staging buffer: the source of the local copy. -/
abbrev rL (c : Dev nD) : Rect S256x512 := Rect.unit (s := S256x512) (k0_off3 c) S256x256.size (k0_off3_inb c)

abbrev dstO (c : Dev nD) : Memref sig .tc .hbm S256x256 .f32 := oM.slice (rO c) (fun _ => rfl)
abbrev srcR (c : Dev nD) : Memref sig .tc .vmem S256x256 .f32 := xM.slice (rR c) (fun _ => rfl)
abbrev srcL (c : Dev nD) : Memref sig .tc .vmem S256x256 .f32 := xM.slice (rL c) (fun _ => rfl)

abbrev barS : Sem sig := (SemArray.scalar (sig.barrier 0 rfl) : Sems sig S_).sem
abbrev sendS : DmaSems sig S_ := cc0_scratch0
abbrev recvS : DmaSems sig S_ := cc0_scratch1
abbrev locS : DmaSems sig S_ := cc0_scratch2

abbrev barCell (c : Dev nD) : GSem nD τ sig := ((c : Thread nD τ), .reg barS)
abbrev sendCell (c : Dev nD) : GSem nD τ sig := ((c : Thread nD τ), .dma sendS.sem)
abbrev recvCell (c : Dev nD) : GSem nD τ sig := ((c : Thread nD τ), .dma recvS.sem)
abbrev locCell (c : Dev nD) : GSem nD τ sig := ((c : Thread nD τ), .dma locS.sem)

/-- The kernel's own (scoped) semaphores: send, receive, local; -/
abbrev osem : Fin 3 → SemLoc sig := fun | 0 => .dma sendS.sem | 1 => .dma recvS.sem | 2 => .dma locS.sem
/-- all four of the protocol's: barrier, send, receive, local. -/
abbrev csem : Fin 4 → SemLoc sig := fun | 0 => .reg barS | 1 => .dma sendS.sem | 2 => .dma recvS.sem | 3 => .dma locS.sem
abbrev kcell (ck : Dev nD × Fin 4) : GSem nD τ sig := ((ck.1 : Thread nD τ), csem ck.2)

/-- What a copy of a 256 × 256 block of f32 credits a DMA semaphore. -/
abbrev N : ℕ := (dstO (0 : Dev nD)).view.dmaCredit
theorem N_pos : 0 < N := View.dmaCredit_pos _ (by decide)

/-! ## The halves are complementary -/

theorem dst_set (c : Dev nD) : (dstO c).view.set = (rO c).set := by
  simp only [Memref.view_slice, Memref.view_whole, View.set_slice_whole]
theorem srcR_set (c : Dev nD) : (srcR c).view.set = (rR c).set := by
  simp only [Memref.view_slice, Memref.view_whole, View.set_slice_whole]
theorem srcL_set (c : Dev nD) : (srcL c).view.set = (rL c).set := by
  simp only [Memref.view_slice, Memref.view_whole, View.set_slice_whole]

/-- The rows of a result that `c`'s offsets do not name are the rows `peer c`'s name. -/
theorem compl_dst (c : Dev nD) : Finset.univ \ (dstO c).view.set = (dstO (peer c)).view.set := by
  rw [dst_set, dst_set]
  ext i
  have h0 : (i 0 : ℕ) < 512 := (i 0).isLt
  have h1 : (i 1 : ℕ) < 256 := (i 1).isLt
  have hc := half_le c
  have hp := peer_half c
  constructor
  · intro h
    have hn := (Finset.mem_sdiff.mp h).2
    rw [Rect.mem_set_unit, k0_off1_eq] at hn
    rw [Rect.mem_set_unit, k0_off1_eq, hp]
    simp only [Fin.forall_fin_two, Matrix.cons_val_zero, Matrix.cons_val_one] at hn ⊢
    refine ⟨?_, ?_⟩
    · by_contra hx; apply hn; constructor <;> constructor <;> first | omega | (show _ < _ + 256; omega) | (show _ ≤ _; omega)
    · constructor <;> first | omega | (show _ < _ + 256; omega)
  · intro h
    refine Finset.mem_sdiff.mpr ⟨Finset.mem_univ _, fun hn => ?_⟩
    rw [Rect.mem_set_unit, k0_off1_eq] at hn
    rw [Rect.mem_set_unit, k0_off1_eq, hp] at h
    simp only [Fin.forall_fin_two, Matrix.cons_val_zero, Matrix.cons_val_one] at hn h
    have a := hn.1; have b := h.1
    change _ ∧ (_ < _ + 256) at a
    change _ ∧ (_ < _ + 256) at b
    omega

/-- The columns of the staging buffer the transfer does not read are the ones the local copy reads. -/
theorem compl_src (c : Dev nD) : Finset.univ \ (srcR c).view.set = (srcL c).view.set := by
  rw [srcR_set, srcL_set]
  ext i
  have h0 : (i 0 : ℕ) < 256 := (i 0).isLt
  have h1 : (i 1 : ℕ) < 512 := (i 1).isLt
  have hc := half_le c
  constructor
  · intro h
    have hn := (Finset.mem_sdiff.mp h).2
    rw [Rect.mem_set_unit, k0_off2_eq] at hn
    rw [Rect.mem_set_unit, k0_off3_eq]
    simp only [Fin.forall_fin_two, Matrix.cons_val_zero, Matrix.cons_val_one] at hn ⊢
    refine ⟨?_, ?_⟩
    · constructor <;> first | omega | (show _ < _ + 256; omega)
    · by_contra hx; apply hn; constructor <;> constructor <;> first | omega | (show _ < _ + 256; omega) | (show _ ≤ _; omega)
  · intro h
    refine Finset.mem_sdiff.mpr ⟨Finset.mem_univ _, fun hn => ?_⟩
    rw [Rect.mem_set_unit, k0_off2_eq] at hn
    rw [Rect.mem_set_unit, k0_off3_eq] at h
    simp only [Fin.forall_fin_two, Matrix.cons_val_zero, Matrix.cons_val_one] at hn h
    have a := hn.2; have b := h.2
    change _ ∧ (_ < _ + 256) at a
    change _ ∧ (_ < _ + 256) at b
    omega

/-! ## Contents -/

/-- Device `c`'s staging buffer during the body: its block of `x`, the whole argument array. -/
def xstg (c : Dev nD) : (cc0_stg0_0 : Ref sig .tc).ty.Contents (Elt F) :=
  (win0_0.blk (0 : Fin 1)).view.read (Elt F) (m ((c : Thread nD τ).loc main_arg0))

/-- Device `c`'s result after the run: the launch contents, its rows [256 (c / 2), +256) overwritten with the column
    half [256 (c / 2), +256) of its own block of `x`, the other rows with the same column half of `peer c`'s block. -/
def outAt (c : Dev nD) : Buf (Elt F) ((c : Thread nD τ).loc main_v1) :=
  (dstO (peer c)).view.write (Elt F)
    ((dstO c).view.write (Elt F) (m ((c : Thread nD τ).loc main_v1)) ((srcL c).view.read (Elt F) (xstg m c)) Finset.univ)
    ((srcR (peer c)).view.read (Elt F) (xstg m (peer c))) Finset.univ

omit [FloatOps F] in
/-- On the rows `peer c` writes, the result is what that transfer writes over anything. -/
theorem outAt_recv (c : Dev nD) (fd : Buf (Elt F) ((c : Thread nD τ).loc main_v1)) :
    ∀ i ∈ (dstO (peer c)).view.set,
      (dstO (peer c)).view.write (Elt F) fd ((srcR (peer c)).view.read (Elt F) (xstg m (peer c))) Finset.univ i = outAt m c i :=
  fun i hi => Cert.Lib.write_univ_congr_of_mem_set _ _ _ _ hi

omit [FloatOps F] in
/-- On the rows `c` writes itself, the result is what the local copy writes over anything. -/
theorem outAt_loc (c : Dev nD) (fd : Buf (Elt F) ((c : Thread nD τ).loc main_v1)) :
    ∀ i ∈ (dstO c).view.set,
      (dstO c).view.write (Elt F) fd ((srcL c).view.read (Elt F) (xstg m c)) Finset.univ i = outAt m c i := fun i hi => by
  unfold outAt
  have hn : i ∉ (dstO (peer c)).view.setOn Finset.univ := by
    rw [View.setOn_univ, ← compl_dst]; exact fun h => (Finset.mem_sdiff.mp h).2 hi
  rw [View.write_of_not_mem (v := (dstO (peer c)).view) _ _ _ hn]
  exact Cert.Lib.write_univ_congr_of_mem_set _ _ _ _ hi

/-! ## The points-to assertions of the halves -/

/-- Rows [256 (c / 2), +256) of device `d`'s result, at contents `f`. -/
def oPts (d c : Dev nD) (f : Buf (Elt F) ((d : Thread nD τ).loc main_v1)) : sProp 𝕄 :=
  (dstO c).view.loc (d : Thread nD τ) ↦[(dstO c).view.set]{fullShare} f
/-- The two column halves of device `c`'s staging buffer, at its block of `x`. -/
def xRPts (c : Dev nD) : sProp 𝕄 := (srcR c).view.loc (c : Thread nD τ) ↦[(srcR c).view.set]{fullShare} xstg m c
def xLPts (c : Dev nD) : sProp 𝕄 := (srcL c).view.loc (c : Thread nD τ) ↦[(srcL c).view.set]{fullShare} xstg m c

omit [FloatOps F] in
instance oPts_storable (d c : Dev nD) (f) : BI.Storable (upEmb : UEmb _ 𝕄) (oPts (F := F) d c f) := by unfold oPts; infer_instance
omit [FloatOps F] in
instance xRPts_storable (c : Dev nD) : BI.Storable (upEmb : UEmb _ 𝕄) (xRPts (F := F) m c) := by unfold xRPts; infer_instance
omit [FloatOps F] in
instance xLPts_storable (c : Dev nD) : BI.Storable (upEmb : UEmb _ 𝕄) (xLPts (F := F) m c) := by unfold xLPts; infer_instance

omit [FloatOps F] in
/-- A whole result array is its two row halves. -/
theorem out_split (c : Dev nD) (f : Buf (Elt F) ((c : Thread nD τ).loc main_v1)) :
    (((c : Thread nD τ).loc main_v1) ↦{fullShare} f : sProp 𝕄) ⊣⊢ iprop(oPts c c f ∗ oPts c (peer c) f) := by
  unfold oPts
  rw [← compl_dst c]
  exact BI.Region.is_split_subset (Finset.subset_univ _)

omit [FloatOps F] in
/-- A whole staging buffer is its two column halves. -/
theorem x_split (c : Dev nD) :
    (((c : Thread nD τ).loc cc0_stg0_0) ↦{fullShare} xstg m c : sProp 𝕄) ⊣⊢ iprop(xRPts m c ∗ xLPts m c) := by
  unfold xRPts xLPts
  rw [← compl_src c]
  exact BI.Region.is_split_subset (Finset.subset_univ _)

/-! ## The schedule -/

/-- What `peer c`'s signal hands `c`: the rows of `peer c`'s result that `c`'s transfer writes. -/
def barPay (c : Dev nD) : sProp 𝕄 := iprop(∃ f, oPts (peer c) c f)
/-- What `peer c`'s transfer hands `c`: the rows of `c`'s result it wrote. -/
def recvPay (c : Dev nD) : sProp 𝕄 := oPts c (peer c) (outAt m c)
/-- What the transfer returns to its issuer: its source half. -/
def sendPay (c : Dev nD) : sProp 𝕄 := xRPts m c
/-- What the local copy returns: the rows it wrote and its source half. -/
def locPay (c : Dev nD) : sProp 𝕄 := iprop(oPts c c (outAt m c) ∗ xLPts m c)

abbrev IsCell (g : GSem nD τ sig) : Prop :=
  g.1.2 = .tc ∧ (g.2 = .reg barS ∨ g.2 = .dma sendS.sem ∨ g.2 = .dma recvS.sem ∨ g.2 = .dma locS.sem)

/-- One round, one duty per cell: a barrier cell's of one unit, a DMA cell's of a block's credit. -/
def sched : Rounds.Schedule (GSem nD τ sig) Unit 𝕄 where
  duties g r := if r = 0 ∧ IsCell g then {()} else ∅
  unitless _ := False
  amount g _ _ := if g.2 = .reg barS then 1 else N
  payload g _ _ :=
    if g.2 = .reg barS then barPay g.1.1
    else if g.2 = .dma recvS.sem then recvPay m g.1.1
    else if g.2 = .dma sendS.sem then sendPay m g.1.1
    else if g.2 = .dma locS.sem then locPay m g.1.1
    else iprop(emp)
  amount_pos g _ _ _ := by
    by_cases h : g.2 = .reg barS
    · rw [if_pos h]; exact Nat.one_pos
    · rw [if_neg h]; exact N_pos

instance sched_payload_storable (g : GSem nD τ sig) (r : ℕ) (d : Unit) : BI.Storable (upEmb : UEmb _ 𝕄) ((sched (F := F) m).payload g r d) := by
  show BI.Storable upEmb (if g.2 = .reg barS then barPay g.1.1 else if g.2 = .dma recvS.sem then recvPay m g.1.1
    else if g.2 = .dma sendS.sem then sendPay m g.1.1 else if g.2 = .dma locS.sem then locPay m g.1.1 else iprop(emp))
  unfold barPay recvPay sendPay locPay
  (repeat' split) <;> infer_instance

section Sched
variable (c : Dev nD)

theorem send_ne_bar : (SemLoc.dma sendS.sem : SemLoc sig) ≠ .reg barS := fun h => by cases h
theorem recv_ne_bar : (SemLoc.dma recvS.sem : SemLoc sig) ≠ .reg barS := fun h => by cases h
theorem loc_ne_bar : (SemLoc.dma locS.sem : SemLoc sig) ≠ .reg barS := fun h => by cases h
theorem send_ne_recv : (SemLoc.dma sendS.sem : SemLoc sig) ≠ .dma recvS.sem := by decide
theorem loc_ne_recv : (SemLoc.dma locS.sem : SemLoc sig) ≠ .dma recvS.sem := by decide
theorem loc_ne_send : (SemLoc.dma locS.sem : SemLoc sig) ≠ .dma sendS.sem := by decide

omit [FloatOps F] in
theorem duties_bar : (sched (F := F) m).duties (barCell c) 0 = {()} := by dsimp only [sched]; exact if_pos ⟨rfl, rfl, .inl rfl⟩
omit [FloatOps F] in
theorem duties_send : (sched (F := F) m).duties (sendCell c) 0 = {()} := by dsimp only [sched]; exact if_pos ⟨rfl, rfl, .inr (.inl rfl)⟩
omit [FloatOps F] in
theorem duties_recv : (sched (F := F) m).duties (recvCell c) 0 = {()} := by dsimp only [sched]; exact if_pos ⟨rfl, rfl, .inr (.inr (.inl rfl))⟩
omit [FloatOps F] in
theorem duties_loc : (sched (F := F) m).duties (locCell c) 0 = {()} := by dsimp only [sched]; exact if_pos ⟨rfl, rfl, .inr (.inr (.inr rfl))⟩
omit [FloatOps F] in
theorem duties_later (g : GSem nD τ sig) : ∀ r, 1 ≤ r → (sched (F := F) m).duties g r = ∅ :=
  fun r hr => by dsimp only [sched]; rw [if_neg fun h => by omega]

omit [FloatOps F] in
theorem amount_bar (u : Unit) : (sched (F := F) m).amount (barCell c) 0 u = 1 := by dsimp only [sched]; exact if_pos rfl
omit [FloatOps F] in
theorem amount_send (u : Unit) : (sched (F := F) m).amount (sendCell c) 0 u = N := by dsimp only [sched]; exact if_neg send_ne_bar
omit [FloatOps F] in
theorem amount_recv (u : Unit) : (sched (F := F) m).amount (recvCell c) 0 u = N := by dsimp only [sched]; exact if_neg recv_ne_bar
omit [FloatOps F] in
theorem amount_loc (u : Unit) : (sched (F := F) m).amount (locCell c) 0 u = N := by dsimp only [sched]; exact if_neg loc_ne_bar

omit [FloatOps F] in
theorem expect_bar : (sched (F := F) m).expect (barCell c) 0 = 1 := by
  unfold Schedule.expect Schedule.amountOf; rw [duties_bar, Finset.sum_singleton, amount_bar]
omit [FloatOps F] in
theorem expect_send : (sched (F := F) m).expect (sendCell c) 0 = N := by
  unfold Schedule.expect Schedule.amountOf; rw [duties_send, Finset.sum_singleton, amount_send]
omit [FloatOps F] in
theorem expect_recv : (sched (F := F) m).expect (recvCell c) 0 = N := by
  unfold Schedule.expect Schedule.amountOf; rw [duties_recv, Finset.sum_singleton, amount_recv]
omit [FloatOps F] in
theorem expect_loc : (sched (F := F) m).expect (locCell c) 0 = N := by
  unfold Schedule.expect Schedule.amountOf; rw [duties_loc, Finset.sum_singleton, amount_loc]

omit [FloatOps F] in
theorem payload_bar (u : Unit) : (sched (F := F) m).payload (barCell c) 0 u = barPay c := by dsimp only [sched]; exact if_pos rfl
omit [FloatOps F] in
theorem payload_recv (u : Unit) : (sched (F := F) m).payload (recvCell c) 0 u = recvPay m c := by
  dsimp only [sched]; rw [if_neg recv_ne_bar, if_pos rfl]
omit [FloatOps F] in
theorem payload_send (u : Unit) : (sched (F := F) m).payload (sendCell c) 0 u = sendPay m c := by
  dsimp only [sched]; rw [if_neg send_ne_bar, if_neg send_ne_recv, if_pos rfl]
omit [FloatOps F] in
theorem payload_loc (u : Unit) : (sched (F := F) m).payload (locCell c) 0 u = locPay m c := by
  dsimp only [sched]; rw [if_neg loc_ne_bar, if_neg loc_ne_recv, if_neg loc_ne_send, if_pos rfl]

omit [FloatOps F] in
theorem rest_bar : bigSep ((sched (F := F) m).duties (barCell c) 0 \ ∅) (fun u => (sched (F := F) m).payload (barCell c) 0 u) = barPay c := by
  rw [Finset.sdiff_empty, duties_bar, bigSep_singleton, payload_bar]
omit [FloatOps F] in
theorem rest_send : bigSep ((sched (F := F) m).duties (sendCell c) 0 \ ∅) (fun u => (sched (F := F) m).payload (sendCell c) 0 u) = sendPay m c := by
  rw [Finset.sdiff_empty, duties_send, bigSep_singleton, payload_send]
omit [FloatOps F] in
theorem rest_recv : bigSep ((sched (F := F) m).duties (recvCell c) 0 \ ∅) (fun u => (sched (F := F) m).payload (recvCell c) 0 u) = recvPay m c := by
  rw [Finset.sdiff_empty, duties_recv, bigSep_singleton, payload_recv]
omit [FloatOps F] in
theorem rest_loc : bigSep ((sched (F := F) m).duties (locCell c) 0 \ ∅) (fun u => (sched (F := F) m).payload (locCell c) 0 u) = locPay m c := by
  rw [Finset.sdiff_empty, duties_loc, bigSep_singleton, payload_loc]

end Sched

end Cert.KernelProof

end
-- ==== Proof.KernelData.lean ====
/-
# What a device owes at launch, the levels of the cells, and the proof data of the one grid point

At launch device `c` owes `peer c`'s receive cell a block's credit (its transfer) and `peer c`'s barrier cell one unit
(its signal). It waits on its barrier cell while still owing the receive credit, so barrier cells sit below receive
cells; every other wait happens when nothing is owed.
-/
import proofs.«900017_g7700000000000018_dist_a2a_v7x_xy2x2_x_m256_n256_f32_1_alg».proof.Proof.KernelSched

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## What each device owes at launch; the levels -/

def O₀ (c : Dev nD) : CellTallies nD τ sig Unit := tallyAt (recvCell (peer c)) () N + tallyAt (barCell (peer c)) () 1

def L (g : GSem nD τ sig) : Finset Unit := if g.1.2 = .tc then {()} else ∅
/-- Barrier cells at 1, receive cells at 2, every other cell (staging, send, local) at 0. -/
def lv (g : GSem nD τ sig) (_ : Unit) : ℕ := if g.2 = .reg barS then 1 else if g.2 = .dma recvS.sem then 2 else 0
theorem L_of_ne (g : GSem nD τ sig) (h : g.1.2 ≠ .tc) : L g = ∅ := if_neg h
theorem L_tc (c : Dev nD) (sm : SemLoc sig) : L ((c : Thread nD τ), sm) = {()} := if_pos rfl

theorem O₀_pos {c : Dev nD} {g : GSem nD τ sig} {u : Unit} (h : 0 < O₀ c g u) : g = recvCell (peer c) ∨ g = barCell (peer c) := by
  unfold O₀ at h
  rw [Pi.add_apply, Finsupp.add_apply, tallyAt_apply, tallyAt_apply] at h
  by_contra hn; rw [not_or] at hn
  rw [if_neg (fun h' => hn.1 h'.1), if_neg (fun h' => hn.2 h'.1)] at h
  exact Nat.lt_irrefl 0 h

omit [FloatOps F] in
/-- A wait on a DMA cell other than the receive cell is below everything a device owes at launch. -/
theorem mayWait_stage (c : Dev nD) (q : DmaSem sig) (hq : SemLoc.dma q ≠ .dma recvS.sem) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with rfl | rfl <;> exact Finset.mem_singleton_self _)
      (fun p hp => by rw [Finset.mem_singleton.mp hp]; dsimp only [lv]; rw [if_neg (fun h => by cases h), if_neg hq])
      (fun g u hg => by
        rcases O₀_pos hg with rfl | rfl
        · dsimp only [lv]; rw [if_neg recv_ne_bar, if_pos rfl]; decide
        · dsimp only [lv]; rw [if_pos rfl]; decide)
  · rw [MayWait_zero]; iintro -; iempintro

omit [FloatOps F] in
/-- At its barrier wait a device owes only `peer c`'s receive credit: a receive cell, above its barrier cell. -/
theorem mayWait_bar (c : Dev nD) : (levAts L lv : sProp 𝕄) ⊢ MayWait (c : Thread nD τ) (.reg barS) () (tallyAt (recvCell (peer c)) () N) :=
  MayOwe.of_cut (L := L) (lev := lv) 1 (fun p hp => by rw [Finset.mem_singleton.mp hp, L_tc]; exact Finset.mem_singleton_self _)
    (fun g u hg => by
      rw [tallyAt_apply] at hg
      by_cases h : g = recvCell (peer c) ∧ u = ()
      · rw [h.1, L_tc]; exact Finset.mem_singleton_self _
      · rw [if_neg h] at hg; exact absurd hg (Nat.lt_irrefl 0))
    (fun p hp => by rw [Finset.mem_singleton.mp hp]; dsimp only [lv]; rw [if_pos rfl])
    (fun g u hg => by
      rw [tallyAt_apply] at hg
      by_cases h : g = recvCell (peer c) ∧ u = ()
      · rw [h.1]; dsimp only [lv]; rw [if_neg recv_ne_bar, if_pos rfl]; decide
      · rw [if_neg h] at hg; exact absurd hg (Nat.lt_irrefl 0))

/-! ## The ghost state of a device and the proof data of its one grid point -/

/-- The cells' invariants device `c`'s body opens, under the names `K`: its own four, `peer c`'s barrier cell (its
    signal) and `peer c`'s receive cell (its transfer). -/
def invs (K : Dev nD × Fin 4 → ℕ) (c : Dev nD) : sProp 𝕄 :=
  iprop(cellInv ER (sched m) (K (c, 0)) (barCell c) ∗ cellInv ER (sched m) (K (c, 1)) (sendCell c) ∗ cellInv ER (sched m) (K (c, 2)) (recvCell c)
    ∗ cellInv ER (sched m) (K (c, 3)) (locCell c)
    ∗ cellInv ER (sched m) (K (peer c, 0)) (barCell (peer c)) ∗ cellInv ER (sched m) (K (peer c, 2)) (recvCell (peer c)))

instance invs_persistent (K : Dev nD × Fin 4 → ℕ) (c : Dev nD) : BI.Persistent (invs m K c) := by unfold invs; infer_instance

/-- The tokens of the duties device `c` pays: `peer c`'s barrier and receive duties, its own send and local duties. -/
def payToks (c : Dev nD) : sProp 𝕄 :=
  iprop(dutyTok ER (barCell (peer c)) 0 () ∗ dutyTok ER (recvCell (peer c)) 0 () ∗ dutyTok ER (sendCell c) 0 () ∗ dutyTok ER (locCell c) 0 ())

def ghost (K : Dev nD × Fin 4 → ℕ) (c : Dev nD) : sProp 𝕄 :=
  iprop(invs m K c
    ∗ atPos ER (barCell c) 0 ∅ 0 ∗ atPos ER (sendCell c) 0 ∅ 0 ∗ atPos ER (recvCell c) 0 ∅ 0 ∗ atPos ER (locCell c) 0 ∅ 0
    ∗ reached ER (barCell (peer c)) 0 ∗ reached ER (recvCell (peer c)) 0 ∗ reached ER (sendCell c) 0 ∗ reached ER (locCell c) 0
    ∗ payToks c)

/-- What a device's body starts from besides its buffers: the ghost state at some names, the credit to wait on its barrier
    and receive cells, and the level facts. -/
def start (c : Dev nD) : sProp 𝕄 :=
  iprop((∃ K, ghost m K c) ∗ cred (tallyAt (barCell c) () 1) ∗ cred (tallyAt (recvCell c) () N) ∗ levAts L lv)

/-- Before the point: that, and the result array at its launch contents. -/
def Φ₀ (c : Dev nD) : sProp 𝕄 := iprop(start m c ∗ (((c : Thread nD τ).loc main_v1) ↦{fullShare} m ((c : Thread nD τ).loc main_v1)))
/-- After the point: the result array at `outAt`, the three own cells closed at zero. -/
def Φ₁ (c : Dev nD) : sProp 𝕄 :=
  iprop((((c : Thread nD τ).loc main_v1) ↦{fullShare} outAt m c) ∗ semVal (sendCell c) 0 ∗ semVal (recvCell c) 0 ∗ semVal (locCell c) 0)

def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨_ + 1, h⟩ => absurd h (Nat.not_lt.2 (Nat.le_add_left _ _))
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

omit [FloatOps F] in
theorem bigSep_W (Φ : Fin cfg0.W → sProp 𝕄) : bigSep Finset.univ Φ = iprop(Φ (0 : Fin 1)) := bigSep_W0 Φ

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

end Cert.KernelProof

end
-- ==== Proof.KernelBody.lean ====
/-
# The body of one device, run symbolically from its start state to its end state

In program order: the signal to the column mate's barrier cell (handing over the rows of the own result the mate will
write), the wait on the own barrier cell (receiving the mate's rows), the transfer into those rows (paying the mate's
receive duty and the own send duty), the local copy and its wait, the waits on the send and receive cells, and the
three own cells closed. At the end both row halves of the result are held at `outAt` and both column halves of the
staging buffer at the device's block of `x`.
-/
import proofs.«900017_g7700000000000018_dist_a2a_v7x_xy2x2_x_m256_n256_f32_1_alg».proof.Proof.KernelData

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

section Body

variable (K : Dev nD × Fin 4 → ℕ)

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop((ghost m K c ∗ cred (tallyAt (barCell c) () 1) ∗ cred (tallyAt (recvCell c) () N) ∗ levAts L lv
      ∗ (((c : Thread nD τ).loc main_v1) ↦{fullShare} m ((c : Thread nD τ).loc main_v1)))
    ∗ (dats m 0 c).owesAt () t0_0.castSucc
    ∗ (∃ d, stg c cc0_stg0_0 ((dats m 0 c).before (0 : Fin 1) t0_0 d)))

def bodyPost (c : Dev nD) : sProp 𝕄 :=
  iprop(Φ₁ m c ∗ (dats m 0 c).owesAt () t0_0.succ ∗ stg c cc0_stg0_0 (xstg m c))

/-- The transfer, addressed to a device `n` that is `peer c`: it pays the send duty of `c` with the source half and the
    receive duty of `peer c` with the rows written. -/
theorem wp_send_peer (c n : Dev nD) (hn : n = peer c) {hsc : (dstO c : Memref sig (Dev.tc n : Thread nD τ).2.kind .hbm S256x256 .f32).view.ref.isScScratch = false}
    {hsrc : (srcR c).view.WordExact} {hdst : (dstO c).view.WordExact}
    {hsem : DmaTarget.Typed .vmem (.dma recvS.sem) (.remote (Dev.tc n : Thread nD τ) (dstO c) (.dma sendS.sem) hsc)}
    {α : Type} {Q : α → sProp 𝕄} {k : PUnit → Prog (TpuEff nD τ sig (Elt F) Λ₀ .tc) α}
    (fn : Buf (Elt F) ((peer c : Thread nD τ).loc main_v1)) (W : Waits sig Unit) :
    iprop(cellInv ER (sched m) (K (c, 1)) (sendCell c) ∗ cellInv ER (sched m) (K (peer c, 2)) (recvCell (peer c))
        ∗ xRPts m c ∗ oPts (peer c) c fn
        ∗ owes (c : Thread nD τ) (tallyAt (recvCell (peer c)) () N) W
        ∗ dutyTok ER (sendCell c) 0 () ∗ reached ER (sendCell c) 0
        ∗ dutyTok ER (recvCell (peer c)) 0 () ∗ reached ER (recvCell (peer c)) 0)
      ⊢ iprop(((cred (tallyAt (sendCell c) () N) ∗ owes (c : Thread nD τ) 0 W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (srcR c) (.remote (Dev.tc n : Thread nD τ) (dstO c) (.dma sendS.sem) hsc) (.dma recvS.sem) hsrc hdst hsem) k) Q) := by
  subst hn
  unfold xRPts oPts
  have hr := outAt_recv m (peer c) fn
  rw [peer_peer] at hr
  exact Rounds.wp_send_pointsTo 𝒱₀ ER (sched m) (c : Thread nD τ) none (src := srcR c) (dst := dstO c) (c' := (peer c : Thread nD τ))
    (κ₁ := K (c, 1)) (κ₂ := K (peer c, 2)) (q := fullShare) (fs := xstg m c)
    (r₁ := 0) (r₂ := 0) (d₁ := ()) (d₂ := ()) (fd := fn)
    (by rw [duties_send]; exact Finset.mem_singleton_self _) (by rw [duties_recv]; exact Finset.mem_singleton_self _)
    () () N rfl (amount_send m c ()) (amount_recv m (peer c) ()) 0 (by rw [zero_add]) (W := W)
    (by rw [payload_send]; exact BI.Entails.refl _)
    (by rw [payload_recv]; unfold recvPay oPts; rw [peer_peer]; exact Entails.of_eq (BI.Region.is_congr hr))

set_option maxHeartbeats 1600000 in
/-- The body, from `bodyPre` to `bodyPost`, one rule per operation in program order. -/
theorem sound_body (c : Dev nD) (Kt : PUnit → sProp 𝕄) :
    iprop(bodyPre m K c ∗ (bodyPost m c -∗ Kt ⟨⟩))
      ⊢ wp frame (wpE (defs₀ (F := F)) 𝒱₀ c none) Set.univ
          (cc0_body xM (Memref.isWhole_whole _) oM (Memref.isWhole_whole _) cc0_scratch0 cc0_scratch1 cc0_scratch2) Kt := by
  simp only [cc0_body_eq_skeleton]; unfold cc0_body_skel
  simp only [k0_part1_eq_skeleton]; unfold k0_part1_skel
  simp only [semSignalWord, semWaitWord, Prog.lift, Prog.bind_op, Prog.bind_ret, Prog.pure_eq_ret, wp_deviceId]
  unfold bodyPre ghost invs payToks
  iintro ⟨⟨⟨⟨⟨#HIbar, #HIsnd, #HIrcv, #HIloc, #HIbarP, #HIrcvP⟩, HatB, HatS, HatV, HatL, #HrBP, #HrVP, #HrS, #HrL, HtBP, HtVP, HtS, HtL⟩, HcB, HcV, #Hlev, Hv⟩,
    Ho, ⟨%d0, %g0, %hg0, Hx⟩⟩, Hk⟩
  have hx : g0 = xstg m c := by rw [hg0]; unfold Dat.before; rw [if_pos (fetch0_0 t0_0)]; rfl
  subst hx
  unfold Dat.owesAt Pipeline.owesWithin
  icases Ho with ⟨%W, %hW, HO⟩
  rw [show (dats m 0 c).owed t0_0.castSucc = O₀ c from rfl]
  simp only [dev1_eq c, dev2_eq c]
  -- the result array in its two row halves, the staging buffer in its two column halves
  ihave Hv2 := (out_split (F := F) c (m ((c : Thread nD τ).loc main_v1))).1 $$ Hv
  icases Hv2 with ⟨HvC, HvP⟩
  ihave Hx2 := (x_split m c).1 $$ Hx
  icases Hx2 with ⟨HxR, HxL⟩
  -- the signal to the mate's barrier cell: the rows of the own result the mate's transfer writes go with it
  unfold O₀
  iapply (Rounds.wp_signal 𝒱₀ ER (sched m) (c : Thread nD τ) none (dst := (peer c : Thread nD τ)) (κ := K (peer c, 0))
      (d := ()) (by rw [duties_bar]; exact Finset.mem_singleton_self _) ((amount_bar m (peer c) ()).trans (by decide)) () (tallyAt (recvCell (peer c)) () N) rfl)
    $$ [HO HtBP HvP]
  · isplitr; · iexact HIbarP
    isplitl [HO]; · iexact HO
    isplitl [HtBP]; · iexact HtBP
    isplitl [HvP]
    · rw [payload_bar]; unfold barPay; rw [peer_peer]
      iexists (m ((c : Thread nD τ).loc main_v1)); iexact HvP
    · iexact HrBP
  iintro HO
  -- the wait on the own barrier cell, owing the mate's receive credit: the mate's rows come with it
  iapply (Rounds.wp_wait_rest_token 𝒱₀ ER (sched m) (c : Thread nD τ) none (κ := K (c, 0))
      (wpE_semWait_eq 𝒱₀ (c : Thread nD τ) none Set.univ) (Set.mem_univ _) () (O := tallyAt (recvCell (peer c)) () N) (W := W) (R := 0) (m := 0) (T := ∅)
      (by rw [expect_bar]; decide)) $$ [HcB HO HatB]
  · isplitr; · iexact HIbar
    isplitl [HcB]; · iexact HcB
    isplitl [HO]; · iexact HO
    isplitr; · iapply (mayWait_bar c); iexact Hlev
    iexact HatB
  iintro ⟨HO, HatB, -, Hpay⟩
  ihave Hp := (Entails.of_eq (rest_bar m c)) $$ Hpay
  unfold barPay
  icases Hp with ⟨%fn, HvN⟩
  -- the transfer into the mate's rows
  iapply (wp_send_peer m K c _ (dev2_eq c) fn (insert (SemLoc.reg barS, ()) W)) $$ [HxR HvN HO HtS HtVP]
  · isplitr; · iexact HIsnd
    isplitr; · iexact HIrcvP
    isplitl [HxR]; · iexact HxR
    isplitl [HvN]; · iexact HvN
    isplitl [HO]; · iexact HO
    isplitl [HtS]; · iexact HtS
    isplitr; · iexact HrS
    isplitl [HtVP]; · iexact HtVP
    iexact HrVP
  iintro ⟨HcS, HO⟩
  -- the local copy into the own rows
  unfold oPts xLPts
  iapply (Rounds.wp_copy_pointsTo 𝒱₀ ER (sched m) (c : Thread nD τ) none (src := srcL c) (dst := dstO c) (sem := .dma locS.sem)
      (q := fullShare) (fs := xstg m c) (fd := m ((c : Thread nD τ).loc main_v1)) (r := 0) (d := ()) (κ := K (c, 3))
      (by rw [duties_loc]; exact Finset.mem_singleton_self _) () N rfl (amount_loc m c ())
      (by rw [payload_loc]; unfold locPay oPts xLPts
          exact sep_mono_left (Entails.of_eq (BI.Region.is_congr (outAt_loc m c _))))) $$ [HxL HvC HtL]
  · isplitr; · iexact HIloc
    isplitl [HxL]; · iexact HxL
    isplitl [HvC]; · iexact HvC
    isplitl [HtL]; · iexact HtL
    iexact HrL
  iintro HcL
  -- the wait on the local cell: the own rows written, the source half back
  iapply (Rounds.wp_wait_rest_token 𝒱₀ ER (sched m) (c : Thread nD τ) none (κ := K (c, 3))
      (wpE_waitDma2_eq 𝒱₀ (c : Thread nD τ) none Set.univ) (Set.mem_univ _) () (O := 0) (W := insert (SemLoc.reg barS, ()) W) (R := 0) (m := 0) (T := ∅)
      (by rw [Nat.zero_add, expect_loc])) $$ [HcL HO HatL]
  · isplitr; · iexact HIloc
    isplitl [HcL]; · iexact HcL
    isplitl [HO]; · iexact HO
    isplitr; · rw [MayWait_zero]; iempintro
    iexact HatL
  iintro ⟨HO, HatL, -, Hpay⟩
  ihave HpL := (Entails.of_eq (rest_loc m c)) $$ Hpay
  unfold locPay
  icases HpL with ⟨HvC, HxL⟩
  -- the wait on the send cell: the other source half back
  iapply (Rounds.wp_wait_rest_token 𝒱₀ ER (sched m) (c : Thread nD τ) none (κ := K (c, 1))
      (wpE_waitDma2_eq 𝒱₀ (c : Thread nD τ) none Set.univ) (Set.mem_univ _) () (O := 0)
      (W := insert (SemLoc.dma locS.sem, ()) (insert (SemLoc.reg barS, ()) W)) (R := 0) (m := 0) (T := ∅)
      (by rw [Nat.zero_add, expect_send])) $$ [HcS HO HatS]
  · isplitr; · iexact HIsnd
    isplitl [HcS]; · iexact HcS
    isplitl [HO]; · iexact HO
    isplitr; · rw [MayWait_zero]; iempintro
    iexact HatS
  iintro ⟨HO, HatS, -, Hpay⟩
  ihave HxR := (Entails.of_eq (rest_send m c)) $$ Hpay
  unfold sendPay
  -- the wait on the receive cell: the mate's rows of the own result, written
  iapply (Rounds.wp_wait_rest_token 𝒱₀ ER (sched m) (c : Thread nD τ) none (κ := K (c, 2))
      (wpE_waitDma2_eq 𝒱₀ (c : Thread nD τ) none Set.univ) (Set.mem_univ _) () (O := 0)
      (W := insert (SemLoc.dma sendS.sem, ()) (insert (SemLoc.dma locS.sem, ()) (insert (SemLoc.reg barS, ()) W))) (R := 0) (m := 0) (T := ∅)
      (by rw [Nat.zero_add, expect_recv])) $$ [HcV HO HatV]
  · isplitr; · iexact HIrcv
    isplitl [HcV]; · iexact HcV
    isplitl [HO]; · iexact HO
    isplitr; · rw [MayWait_zero]; iempintro
    iexact HatV
  iintro ⟨HO, HatV, -, Hpay⟩
  ihave HvP := (Entails.of_eq (rest_recv m c)) $$ Hpay
  unfold recvPay
  -- the three own cells close: their counters at zero are the device's again
  imod (Rounds.cell_close ER (sched m) (Set.mem_univ (K (c, 1))) (fun h => h) (R := 0 + 1) (duties_later m (sendCell c))) $$ [HatS] with HzS
  · isplitr; · iexact HIsnd
    iexact HatS
  imod (Rounds.cell_close ER (sched m) (Set.mem_univ (K (c, 2))) (fun h => h) (R := 0 + 1) (duties_later m (recvCell c))) $$ [HatV] with HzV
  · isplitr; · iexact HIrcv
    iexact HatV
  imod (Rounds.cell_close ER (sched m) (Set.mem_univ (K (c, 3))) (fun h => h) (R := 0 + 1) (duties_later m (locCell c))) $$ [HatL] with HzL
  · isplitr; · iexact HIloc
    iexact HatL
  rw [wp_ret]; imodintro
  iapply Hk
  unfold bodyPost Φ₁ Dat.owesAt Pipeline.owesWithin
  rw [show (dats m 0 c).owed t0_0.succ = 0 from rfl]
  isplitl [HvC HvP HzS HzV HzL]
  · isplitl [HvC HvP]
    · iapply (out_split (F := F) c (outAt m c)).2
      isplitl [HvC] <;> iassumption
    isplitl [HzS]; · iexact HzS
    isplitl [HzV]; · iexact HzV
    iexact HzL
  isplitl [HO]
  · iexists (insert (SemLoc.dma recvS.sem, ()) (insert (SemLoc.dma sendS.sem, ()) (insert (SemLoc.dma locS.sem, ()) (insert (SemLoc.reg barS, ()) W))))
    isplitr; · ipureintro; exact fun _ _ => Or.inl trivial
    iexact HO
  iexists _; isplitr; · (ipureintro; rfl)
  iapply (x_split m c).2
  isplitl [HxR] <;> iassumption

/-- What the point starts from, as the launch's loop hands it to the body. -/
def bodyPre' (c : Dev nD) : sProp 𝕄 :=
  iprop(Φ₀ m c ∗ (dats m 0 c).owesAt () t0_0.castSucc
    ∗ (∃ d, stg c cc0_stg0_0 ((dats m 0 c).before (0 : Fin 1) t0_0 d)))

set_option maxRecDepth 4000 in
/-- The library's body obligation on device `c`. -/
theorem body_obligation (c : Dev nD) : BodyObligation (dats (F := F) m 0 c) (defs₀ (F := F)) 𝒱₀ () Set.univ := fun t => by
  rw [fin_N0 t]
  rw [bigSep_W, bigSep_W]
  simp only [owns_whole_eq]
  show bodyPre' m c ⊢ wp frame (wpE (defs₀ (F := F)) 𝒱₀ c none) Set.univ
    (cc0_body xM (Memref.isWhole_whole _) oM (Memref.isWhole_whole _) cc0_scratch0 cc0_scratch1 cc0_scratch2) (fun _ => bodyPost m c)
  unfold bodyPre' Φ₀ start
  iintro ⟨⟨⟨⟨%K, Hg⟩, Hrest⟩, Hv⟩, Ho, Hx⟩
  iapply (sound_body m K c fun _ => bodyPost m c)
  unfold bodyPre
  isplitr []
  · isplitl [Hg Hrest Hv]
    · isplitl [Hg]; · iexact Hg
      icases Hrest with ⟨H1, H2, H3⟩
      isplitl [H1]; · iexact H1
      isplitl [H2]; · iexact H2
      isplitl [H3]; · iexact H3
      iexact Hv
    isplitl [Ho]; · iexact Ho
    iexact Hx
  · iintro H; iexact H

end Body

end Cert.KernelProof

end
-- ==== Proof.KernelRun.lean ====
/-
# The launch: from every device's body to the run of the whole mesh

The protocol's cells (four a device) are allocated for all devices at once, because a device's barrier and receive
cells are paid by its column mate; the duty tokens of a device's barrier and receive cells are dealt to its mate, by
`peer` as a permutation of the devices. The launch credit of a cell is what the devices together owe it at launch:
one unit for a barrier cell, a block's credit for a receive cell, both owed by the mate.
The run's post names each device's result array (`outAt`) and says its argument array is unchanged.
-/
import proofs.«900017_g7700000000000018_dist_a2a_v7x_xy2x2_x_m256_n256_f32_1_alg».proof.Proof.KernelBody

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (ρ : Dev nD → PrngReg)

theorem ownSemFacts : Pipeline.OwnSemFacts cfg0.spec osem := by decide

theorem share_eq (c : Dev nD) (w : Fin cfg0.W) : (dats m 0 c).share w = fullShare := by unfold Dat.share; split <;> rfl

theorem kcell_injective : Function.Injective (kcell : Dev nD × Fin 4 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := by fin_cases k <;> fin_cases k' <;> first | rfl | exact absurd h2 (by decide)
  subst this; rfl
def protoCells : Finset (GSem nD τ sig) := Finset.univ.map ⟨kcell, kcell_injective⟩
def protoToks : Finset (GSem nD τ sig × ℕ × Unit) :=
  Finset.univ.map ⟨fun ck : Dev nD × Fin 4 => (kcell ck, 0, ()), fun _ _ h => kcell_injective (congrArg Prod.fst h)⟩

def u₀ : UU := (initOf (Pipeline.cells cfgs cellOf_inj) (Pipeline.launchToks cfgs cellOf_inj), initOf protoCells protoToks)

/-- The duty tokens of device `c`'s own cells. -/
def toks (c : Dev nD) : sProp 𝕄 :=
  iprop(dutyTok ER (barCell c) 0 () ∗ dutyTok ER (sendCell c) 0 () ∗ dutyTok ER (recvCell c) 0 () ∗ dutyTok ER (locCell c) 0 ())

/-- What the launch element deals device `c`. -/
def G (c : Dev nD) : sProp 𝕄 :=
  iprop((bigSep Finset.univ fun k : Fin 4 => roundState ER (sched m) (kcell (c, k)) 0)
    ∗ (bigSep Finset.univ fun k : Fin 4 => iprop(atPos ER (kcell (c, k)) 0 ∅ 0 ∗ reached ER (kcell (c, k)) 0)) ∗ toks c)
/-- What the global step makes of it. -/
def G' (c : Dev nD) : sProp 𝕄 := iprop(∃ K, ghost m K c)

omit [FloatOps F] in
theorem bigSep_fin3 (Φ : Fin 3 → sProp 𝕄) : bigSep Finset.univ Φ = iprop(Φ 0 ∗ Φ 1 ∗ Φ 2) := bigSep_univ_eq_bigSepL [0, 1, 2] (by decide) (by decide) Φ
omit [FloatOps F] in
theorem bigSep_fin4 (Φ : Fin 4 → sProp 𝕄) : bigSep Finset.univ Φ = iprop(Φ 0 ∗ Φ 1 ∗ Φ 2 ∗ Φ 3) := bigSep_univ_eq_bigSepL [0, 1, 2, 3] (by decide) (by decide) Φ

omit [FloatOps F] in
theorem fund_proto : BI.own (ER (initOf protoCells protoToks)) ⊢ (|==> bigSep Finset.univ (G m) : sProp 𝕄) := by
  have hX (Φ : GSem nD τ sig → sProp 𝕄) : bigSep protoCells Φ = bigSep Finset.univ fun c : Dev nD => bigSep Finset.univ fun k : Fin 4 => Φ (kcell (c, k)) := by
    unfold protoCells; rw [bigSep_map, bigSep_univ_prod]; rfl
  have hT : bigSep protoToks (fun x => (dutyTok ER x.1 x.2.1 x.2.2 : sProp 𝕄)) = bigSep Finset.univ fun c : Dev nD => toks c := by
    unfold protoToks; rw [bigSep_map, bigSep_univ_prod]
    exact bigSep_congr fun c _ => by unfold toks; rw [bigSep_fin4]; rfl
  iintro HX
  imod (Rounds.fund ER (sched m) protoCells protoToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The send, receive and local semaphores are the kernel's own three; -/
theorem ownSems0_eq (c : Dev nD) : (Pipeline.ownSems0 (Ix := Unit) (Name := ℕ) (U := UU) (Lvl := ℕ) (Val := Elt F) (τ := τ) osem c : sProp 𝕄)
    = iprop(semVal (sendCell c) 0 ∗ semVal (recvCell c) 0 ∗ semVal (locCell c) 0) := by
  rw [Pipeline.ownSems0_eq_of_list c osem [0, 1, 2] (by decide) (by decide)]; rfl
omit [FloatOps F] in
/-- the barrier semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 4 => semVal (kcell (c, k)) 0 : sProp 𝕄) := by
  rw [ownSems0_eq, unscopedSems0_eq, bigSep_fin4]
  iintro ⟨⟨HS, HV, HL⟩, HB⟩
  isplitl [HB]; · iexact HB
  isplitl [HS]; · iexact HS
  isplitl [HV] <;> iassumption

omit [FloatOps F] in
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 4 => semVal (kcell (c, k)) 0) ∗ bigSep Finset.univ fun k : Fin 4 => roundState ER (sched m) (kcell (c, k)) 0)
      ⊢ (|={Set.univ}=> bigSep Finset.univ fun k => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

def records (K : Dev nD × Fin 4 → ℕ) : sProp 𝕄 :=
  iprop((bigSep Finset.univ fun ck : Dev nD × Fin 4 => cellInv ER (sched m) (K ck) (kcell ck))
    ∗ bigSep Finset.univ fun ck : Dev nD × Fin 4 => reached ER (kcell ck) 0)

instance records_persistent (K : Dev nD × Fin 4 → ℕ) : BI.Persistent (records m K) := by unfold records; infer_instance

omit [FloatOps F] in
theorem inv_at (K : Dev nD × Fin 4 → ℕ) (ck : Dev nD × Fin 4) :
    (bigSep Finset.univ fun ck : Dev nD × Fin 4 => (cellInv ER (sched m) (K ck) (kcell ck) : sProp 𝕄)) ⊢ cellInv ER (sched m) (K ck) (kcell ck) :=
  bigSep_elim (Finset.mem_univ ck)
omit [FloatOps F] in
theorem reached_at (ck : Dev nD × Fin 4) :
    (bigSep Finset.univ fun ck : Dev nD × Fin 4 => (reached ER (kcell ck) 0 : sProp 𝕄)) ⊢ reached ER (kcell ck) 0 :=
  bigSep_elim (Finset.mem_univ ck)

/-- What stays with device `c`: its positions, and the tokens of the duties it pays. -/
def linear (c : Dev nD) : sProp 𝕄 :=
  iprop((atPos ER (barCell c) 0 ∅ 0 ∗ atPos ER (sendCell c) 0 ∅ 0 ∗ atPos ER (recvCell c) 0 ∅ 0 ∗ atPos ER (locCell c) 0 ∅ 0) ∗ payToks c)

omit [FloatOps F] in
theorem ghost_intro (K : Dev nD × Fin 4 → ℕ) (c : Dev nD) : iprop(records m K ∗ linear c) ⊢ G' m c := by
  unfold records linear G' ghost invs
  iintro ⟨⟨#HI, #HR⟩, ⟨HaB, HaS, HaV, HaL⟩, Htk⟩
  iexists K
  isplitr
  · isplitr; · iapply (inv_at m K (c, 0)); iexact HI
    isplitr; · iapply (inv_at m K (c, 1)); iexact HI
    isplitr; · iapply (inv_at m K (c, 2)); iexact HI
    isplitr; · iapply (inv_at m K (c, 3)); iexact HI
    isplitr; · iapply (inv_at m K (peer c, 0)); iexact HI
    iapply (inv_at m K (peer c, 2)); iexact HI
  isplitl [HaB]; · iexact HaB
  isplitl [HaS]; · iexact HaS
  isplitl [HaV]; · iexact HaV
  isplitl [HaL]; · iexact HaL
  isplitr; · iapply (reached_at (F := F) (peer c, 0)); iexact HR
  isplitr; · iapply (reached_at (F := F) (peer c, 2)); iexact HR
  isplitr; · iapply (reached_at (F := F) (c, 1)); iexact HR
  isplitr; · iapply (reached_at (F := F) (c, 3)); iexact HR
  iexact Htk

omit [FloatOps F] in
/-- The barrier and receive tokens swapped within each mesh column. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep', bigSep_sep', bigSep_sep',
    bigSep_univ_equiv swap (fun c : Dev nD => (dutyTok ER (barCell c) 0 () : sProp 𝕄)),
    bigSep_univ_equiv swap (fun c : Dev nD => (dutyTok ER (recvCell c) 0 () : sProp 𝕄))]
  iintro ⟨HB, HS, HV, HL⟩
  isplitl [HB]; · iexact HB
  isplitl [HV]; · iexact HV
  isplitl [HS]; · iexact HS
  iexact HL

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] in
theorem regroup :
    (bigSep Finset.univ fun c : Dev nD => iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 4 => iprop(∃ κ : ℕ, cellInv ER (sched m) κ (kcell ck))),
    bigSep_congr (s := Finset.univ) (fun (c : Dev nD) _ => bigSep_sep' Finset.univ (fun k : Fin 4 => (atPos ER (kcell (c, k)) 0 ∅ 0 : sProp 𝕄)) (fun k => reached ER (kcell (c, k)) 0)),
    bigSep_sep', ← bigSep_univ_prod (fun ck : Dev nD × Fin 4 => (reached ER (kcell ck) 0 : sProp 𝕄))]
  iintro ⟨HI, ⟨Hat, #HR⟩, Htok⟩
  ihave HK := (BI.bigSep_exists_pi Finset.univ (fun (ck : Dev nD × Fin 4) (κ : ℕ) => (cellInv ER (sched m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun k : Fin 4 => (atPos ER (kcell (c, k)) 0 ∅ 0 : sProp 𝕄)) payToks).symm).trans
      (bigSep_mono fun c _ => show _ ⊢ linear c from Entails.of_eq (by unfold linear; rw [bigSep_fin4])))
    isplitl [Hat]; · iexact Hat
    iexact Htk

omit [FloatOps F] in
/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ### The launch credit -/

omit [FloatOps F] in
theorem cell_eq_iff {a b : Dev nD} {sm : SemLoc sig} : Iff ((((a : Thread nD τ), sm) : GSem nD τ sig) = ((b : Thread nD τ), sm)) (a = b) :=
  ⟨fun h => Fin.ext (congrArg (fun g : GSem nD τ sig => g.1.1.val) h), fun h => h ▸ rfl⟩
omit [FloatOps F] in
theorem eq_peer_iff {d c : Dev nD} : Iff (peer d = c) (d = peer c) :=
  ⟨fun h => by rw [← h, peer_peer], fun h => by rw [h, peer_peer]⟩

omit [FloatOps F] in
/-- What device `d` owes device `c`'s barrier cell: a unit if it is `c`'s mate. -/
theorem owed_bar (d c : Dev nD) : O₀ d (barCell c) () = if d = peer c then 1 else 0 := by
  unfold O₀
  rw [Pi.add_apply, Finsupp.add_apply, tallyAt_ne_cell (fun h => recv_ne_bar (congrArg Prod.snd h).symm), tallyAt_apply, Finsupp.zero_apply, Nat.zero_add]
  by_cases h : d = peer c
  · subst h; rw [peer_peer, if_pos ⟨rfl, rfl⟩, if_pos rfl]
  · rw [if_neg (fun ⟨h1, _⟩ => h (eq_peer_iff.mp (cell_eq_iff.mp h1).symm)), if_neg h]
omit [FloatOps F] in
/-- What device `d` owes device `c`'s receive cell: a block's credit if it is `c`'s mate. -/
theorem owed_recv (d c : Dev nD) : O₀ d (recvCell c) () = if d = peer c then N else 0 := by
  unfold O₀
  rw [Pi.add_apply, Finsupp.add_apply, tallyAt_apply, tallyAt_ne_cell (fun h => recv_ne_bar (congrArg Prod.snd h)), Finsupp.zero_apply, Nat.add_zero]
  by_cases h : d = peer c
  · subst h; rw [peer_peer, if_pos ⟨rfl, rfl⟩, if_pos rfl]
  · rw [if_neg (fun ⟨h1, _⟩ => h (eq_peer_iff.mp (cell_eq_iff.mp h1).symm)), if_neg h]

omit [FloatOps F] in
theorem launch_bar (c : Dev nD) :
    tallyOn (barCell c) (launchCredit (Pipeline.owing O₀) 0 (barCell c)) = (tallyAt (barCell c) () 1 : CellTallies nD τ sig Unit) := by
  unfold tallyAt; refine congrArg _ (Finsupp.ext fun u => ?_); cases u
  rw [Pipeline.launchCredit_owing, Finsupp.single_eq_same, Finset.sum_congr rfl fun d _ => owed_bar d c, Finset.sum_ite_eq' Finset.univ (peer c) fun _ => 1,
    if_pos (Finset.mem_univ _)]
omit [FloatOps F] in
theorem launch_recv (c : Dev nD) :
    tallyOn (recvCell c) (launchCredit (Pipeline.owing O₀) 0 (recvCell c)) = (tallyAt (recvCell c) () N : CellTallies nD τ sig Unit) := by
  unfold tallyAt; refine congrArg _ (Finsupp.ext fun u => ?_); cases u
  rw [Pipeline.launchCredit_owing, Finsupp.single_eq_same, Finset.sum_congr rfl fun d _ => owed_recv d c, Finset.sum_ite_eq' Finset.univ (peer c) fun _ => N,
    if_pos (Finset.mem_univ _)]

omit [FloatOps F] in
theorem creds (c : Dev nD) : (Pipeline.launchCred O₀ c : sProp 𝕄) ⊢ iprop(cred (tallyAt (barCell c) () 1) ∗ cred (tallyAt (recvCell c) () N)) := by
  unfold Pipeline.launchCred
  rw [bigSep_univ_at _ (SemLoc.reg barS), launch_bar]
  refine sep_mono_right ?_
  rw [← launch_recv]
  exact bigSep_elim (Finset.mem_erase.mpr ⟨recv_ne_bar, Finset.mem_univ _⟩)

/-! ### The launch theorem's side conditions -/

/-- What the exit hands back for reading: the result array at `outAt`. -/
def Yout (c : Dev nD) : sProp 𝕄 := (((c : Thread nD τ).loc main_v1) ↦{fullShare} outAt m c)

omit [FloatOps F] in
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(Φ₀ m c ∗ emp) := by
  rw [Pipeline.unscopedRestP_none, unscopedRest0_eq]
  iintro ⟨Hv, Hlev, Hcr, -, HG⟩
  ihave Hc := (creds (F := F) c) $$ Hcr
  icases Hc with ⟨H1, HN⟩
  imodintro
  unfold Φ₀ start G'
  isplitl
  · isplitl [HG H1 HN Hlev]
    · isplitl [HG]; · iexact HG
      isplitl [H1]; · iexact H1
      isplitl [HN]; · iexact HN
      iexact Hlev
    · iexact Hv
  · iempintro

theorem phi0_intro (c : Dev nD) :
    iprop(Φ₀ m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl]
  iintro ⟨Hs, -, -⟩
  iexact Hs

theorem phi1_exit (c : Dev nD) :
    (dats m 0 c).Φ (Fin.last cfg0.N) ⊢ iprop(Yout m c ∗ Pipeline.ownSems0 osem c ∗ Pipeline.scopedRest cfg0.spec c) := by
  rw [show (dats m 0 c).Φ (Fin.last cfg0.N) = Φ₁ m c from rfl, scopedRest0_eq, ownSems0_eq]
  unfold Φ₁ Yout
  iintro ⟨Hr, HzS, HzV, HzL⟩
  isplitl [Hr]; · iexact Hr
  isplitl [HzS HzV HzL]
  · isplitl [HzS]; · iexact HzS
    isplitl [HzV] <;> iassumption
  iempintro

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-! ### The run -/

set_option maxRecDepth 8000 in
/-- At the compiled mesh of four devices, for any float values, from any memory with zero counters: every weakly fair
    execution of @main — the two devices of each mesh column shaking hands on the barrier semaphore, exchanging halves
    and copying their own — terminates, nothing faults, and every final state has each device's result array at `outAt`
    and its argument array unchanged. -/
theorem run_main : θ_run defs (onTc (τ := τ) (main (F := F))) ⟨m, fun _ => 0, ρ⟩
    (fun r => ∀ c : Dev nD, r.2.mem ((c : Thread nD τ).loc main_v1) = outAt m c
      ∧ r.2.mem ((c : Thread nD τ).loc main_arg0) = m ((c : Thread nD τ).loc main_arg0)) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_proto m) $$ HX with HG
      imodintro
      isplitl [HP] <;> iassumption)
    (hglob := glob m)
    (hA := fun _ _ => rfl) (hpf := fun _ k => k.elim0)
    (X := Φ₀ m) (Y := Yout m) (Z := fun _ => iprop(emp))
    (hX := start_intro m ρ) (hin := phi0_intro m) (hout := phi1_exit m)
    (QY := fun c s => s.mem ((c : Thread nD τ).loc main_v1) = outAt m c)
    (hY := fun c s' => by
      unfold Yout
      iintro ⟨Hy, -, HSI⟩
      icombine HSI Hy gives %hx
      imodintro
      isplitr; · ipureintro; exact Buf.eq_of_forall_mem_univ hx
      iexact HSI)
    (hQ := fun s h c => ⟨(h c).2.2, ((h c).1 0).trans ((dats m 0 c).arrAt_in (0 : Fin 1) rfl _)⟩)

end Cert.KernelProof

end
-- ==== Proof.KernelIdealSched.lean ====
/-
# The exchange protocol of the 2 × 2 all-to-all, device by device

Device `c` sits at mesh position (c / 2, c % 2) and holds rows [256 (c / 2), 256 (c / 2) + 256) of the 512 × 512 array
`x` in its staging buffer. Its result is a 512 × 256 array. The kernel exchanges halves between the two devices of a
mesh column, `c` and `peer c` (the device at (1 - c / 2, c % 2); `peer` is an involution):
* it signals `peer c`'s barrier semaphore once and waits for one unit on its own;
* it copies the column half [256 (1 - c / 2), +256) of its staging buffer into rows [256 (c / 2), +256) of
  `peer c`'s result (crediting its own send semaphore and `peer c`'s receive semaphore);
* it copies the column half [256 (c / 2), +256) of its staging buffer into rows [256 (c / 2), +256) of its own result
  (crediting its local semaphore), and waits for that copy;
* it waits on its send semaphore and on its receive semaphore.
The rows of the result a device writes itself and the rows its peer writes are complementary halves, so nothing races.

Every semaphore has one round with one duty. The barrier duty of `c` is paid by `peer c`'s signal and hands `c` the
rows of `peer c`'s result that `c`'s transfer will write; the receive duty of `c` is paid by `peer c`'s transfer and
hands `c` those rows of its own result, written; the send duty returns the source half of the staging buffer; the
local duty returns the other source half and the rows written locally.
-/
import proofs.«900017_g7700000000000018_dist_a2a_v7x_xy2x2_x_m256_n256_f32_1_alg».proof.Proof.Gen.KernelIdeal
import proofs.«900017_g7700000000000018_dist_a2a_v7x_xy2x2_x_m256_n256_f32_1_alg».proof.Proof.Gen.KernelIdeal.Skeleton
import proofs.«900017_g7700000000000018_dist_a2a_v7x_xy2x2_x_m256_n256_f32_1_alg».proof.Proof.Gen.KernelIdeal.Launch
import proofs.«900017_g7700000000000018_dist_a2a_v7x_xy2x2_x_m256_n256_f32_1_alg».proof.Proof.Gen.KernelIdeal.Points
import proofs.«900017_g7700000000000018_dist_a2a_v7x_xy2x2_x_m256_n256_f32_1_alg».proof.Proof.Gen.KernelIdeal.Frame
import Idealize.ShloMosaic.Lib.Pipeline.Launch
import Idealize.ShloMosaic.Lib.Pipeline.Kit
import Idealize.ShloMosaic.Lib.Pipeline.Value
import Idealize.ShloMosaic.Lib.Tactic
import proofs.«900017_g7700000000000018_dist_a2a_v7x_xy2x2_x_m256_n256_f32_1_alg».proof.Proof.LibViewWrite

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy of the rounds algebra and the protocol's -/

abbrev UU : Type := UR sig nD τ × UR sig nD τ

local notation "𝕄" => MT nD τ sig Unit (Elt F) ℕ UU ℕ

abbrev EP : Emb (UR sig nD τ) (MT nD τ sig Unit (Elt F) ℕ UU ℕ) := embL
abbrev ER : Emb (UR sig nD τ) (MT nD τ sig Unit (Elt F) ℕ UU ℕ) := embR

variable (m : (ℓ : Loc nD τ sig) → Buf (Elt F) ℓ)

/-! ## The column mate -/

/-- The other device of `c`'s mesh column: mesh position (1 - c / 2, c % 2). -/
def peer (c : Dev nD) : Dev nD := ⟨((c.val % 2) + 2) - 2 * (c.val / 2), by have h : c.val < 4 := c.isLt; show _ < 4; omega⟩

theorem peer_peer (c : Dev nD) : peer (peer c) = c := by revert c; decide
theorem peer_ne (c : Dev nD) : peer c ≠ c := by revert c; decide
theorem peer_half (c : Dev nD) : (peer c).val / 2 = 1 - c.val / 2 := by revert c; decide
theorem half_le (c : Dev nD) : c.val / 2 ≤ 1 := by revert c; decide

/-- Both device-id chains of the kernel (the signal's and the transfer's) name `peer c`. -/
theorem dev1_eq (c : Dev nD) : (⟨k0_dev1 c, k0_dev1_lt c⟩ : Dev nD) = peer c := Fin.ext (k0_dev1_eq c)
theorem dev2_eq (c : Dev nD) : (⟨k0_dev2 c, k0_dev2_lt c⟩ : Dev nD) = peer c := Fin.ext (k0_dev2_eq c)

def swap : Dev nD ≃ Dev nD := ⟨peer, peer, peer_peer, peer_peer⟩

/-! ## The memrefs, their halves, and the cells -/

abbrev xM : Memref sig .tc .vmem S256x512 .f32 := Memref.whole cc0_stg0_0
abbrev oM : Memref sig .tc .hbm S512x256 .f32 := Memref.whole main_v1

/-- Rows [256 (c / 2), +256) of a result array: where device `c`'s two copies write (its own result, and `peer c`'s). -/
abbrev rO (c : Dev nD) : Rect S512x256 := Rect.unit (s := S512x256) (k0_off1 c) S256x256.size (k0_off1_inb c)
/-- Columns [256 (1 - c / 2), +256) of the staging buffer: the source of the transfer to `peer c`. -/
abbrev rR (c : Dev nD) : Rect S256x512 := Rect.unit (s := S256x512) (k0_off2 c) S256x256.size (k0_off2_inb c)
/-- Columns [256 (c / 2), +256) of the staging buffer: the source of the local copy. -/
abbrev rL (c : Dev nD) : Rect S256x512 := Rect.unit (s := S256x512) (k0_off3 c) S256x256.size (k0_off3_inb c)

abbrev dstO (c : Dev nD) : Memref sig .tc .hbm S256x256 .f32 := oM.slice (rO c) (fun _ => rfl)
abbrev srcR (c : Dev nD) : Memref sig .tc .vmem S256x256 .f32 := xM.slice (rR c) (fun _ => rfl)
abbrev srcL (c : Dev nD) : Memref sig .tc .vmem S256x256 .f32 := xM.slice (rL c) (fun _ => rfl)

abbrev barS : Sem sig := (SemArray.scalar (sig.barrier 0 rfl) : Sems sig S_).sem
abbrev sendS : DmaSems sig S_ := cc0_scratch0
abbrev recvS : DmaSems sig S_ := cc0_scratch1
abbrev locS : DmaSems sig S_ := cc0_scratch2

abbrev barCell (c : Dev nD) : GSem nD τ sig := ((c : Thread nD τ), .reg barS)
abbrev sendCell (c : Dev nD) : GSem nD τ sig := ((c : Thread nD τ), .dma sendS.sem)
abbrev recvCell (c : Dev nD) : GSem nD τ sig := ((c : Thread nD τ), .dma recvS.sem)
abbrev locCell (c : Dev nD) : GSem nD τ sig := ((c : Thread nD τ), .dma locS.sem)

/-- The kernel's own (scoped) semaphores: send, receive, local; -/
abbrev osem : Fin 3 → SemLoc sig := fun | 0 => .dma sendS.sem | 1 => .dma recvS.sem | 2 => .dma locS.sem
/-- all four of the protocol's: barrier, send, receive, local. -/
abbrev csem : Fin 4 → SemLoc sig := fun | 0 => .reg barS | 1 => .dma sendS.sem | 2 => .dma recvS.sem | 3 => .dma locS.sem
abbrev kcell (ck : Dev nD × Fin 4) : GSem nD τ sig := ((ck.1 : Thread nD τ), csem ck.2)

/-- What a copy of a 256 × 256 block of f32 credits a DMA semaphore. -/
abbrev N : ℕ := (dstO (0 : Dev nD)).view.dmaCredit
theorem N_pos : 0 < N := View.dmaCredit_pos _ (by decide)

/-! ## The halves are complementary -/

theorem dst_set (c : Dev nD) : (dstO c).view.set = (rO c).set := by
  simp only [Memref.view_slice, Memref.view_whole, View.set_slice_whole]
theorem srcR_set (c : Dev nD) : (srcR c).view.set = (rR c).set := by
  simp only [Memref.view_slice, Memref.view_whole, View.set_slice_whole]
theorem srcL_set (c : Dev nD) : (srcL c).view.set = (rL c).set := by
  simp only [Memref.view_slice, Memref.view_whole, View.set_slice_whole]

/-- The rows of a result that `c`'s offsets do not name are the rows `peer c`'s name. -/
theorem compl_dst (c : Dev nD) : Finset.univ \ (dstO c).view.set = (dstO (peer c)).view.set := by
  rw [dst_set, dst_set]
  ext i
  have h0 : (i 0 : ℕ) < 512 := (i 0).isLt
  have h1 : (i 1 : ℕ) < 256 := (i 1).isLt
  have hc := half_le c
  have hp := peer_half c
  constructor
  · intro h
    have hn := (Finset.mem_sdiff.mp h).2
    rw [Rect.mem_set_unit, k0_off1_eq] at hn
    rw [Rect.mem_set_unit, k0_off1_eq, hp]
    simp only [Fin.forall_fin_two, Matrix.cons_val_zero, Matrix.cons_val_one] at hn ⊢
    refine ⟨?_, ?_⟩
    · by_contra hx; apply hn; constructor <;> constructor <;> first | omega | (show _ < _ + 256; omega) | (show _ ≤ _; omega)
    · constructor <;> first | omega | (show _ < _ + 256; omega)
  · intro h
    refine Finset.mem_sdiff.mpr ⟨Finset.mem_univ _, fun hn => ?_⟩
    rw [Rect.mem_set_unit, k0_off1_eq] at hn
    rw [Rect.mem_set_unit, k0_off1_eq, hp] at h
    simp only [Fin.forall_fin_two, Matrix.cons_val_zero, Matrix.cons_val_one] at hn h
    have a := hn.1; have b := h.1
    change _ ∧ (_ < _ + 256) at a
    change _ ∧ (_ < _ + 256) at b
    omega

/-- The columns of the staging buffer the transfer does not read are the ones the local copy reads. -/
theorem compl_src (c : Dev nD) : Finset.univ \ (srcR c).view.set = (srcL c).view.set := by
  rw [srcR_set, srcL_set]
  ext i
  have h0 : (i 0 : ℕ) < 256 := (i 0).isLt
  have h1 : (i 1 : ℕ) < 512 := (i 1).isLt
  have hc := half_le c
  constructor
  · intro h
    have hn := (Finset.mem_sdiff.mp h).2
    rw [Rect.mem_set_unit, k0_off2_eq] at hn
    rw [Rect.mem_set_unit, k0_off3_eq]
    simp only [Fin.forall_fin_two, Matrix.cons_val_zero, Matrix.cons_val_one] at hn ⊢
    refine ⟨?_, ?_⟩
    · constructor <;> first | omega | (show _ < _ + 256; omega)
    · by_contra hx; apply hn; constructor <;> constructor <;> first | omega | (show _ < _ + 256; omega) | (show _ ≤ _; omega)
  · intro h
    refine Finset.mem_sdiff.mpr ⟨Finset.mem_univ _, fun hn => ?_⟩
    rw [Rect.mem_set_unit, k0_off2_eq] at hn
    rw [Rect.mem_set_unit, k0_off3_eq] at h
    simp only [Fin.forall_fin_two, Matrix.cons_val_zero, Matrix.cons_val_one] at hn h
    have a := hn.2; have b := h.2
    change _ ∧ (_ < _ + 256) at a
    change _ ∧ (_ < _ + 256) at b
    omega

/-! ## Contents -/

/-- Device `c`'s staging buffer during the body: its block of `x`, the whole argument array. -/
def xstg (c : Dev nD) : (cc0_stg0_0 : Ref sig .tc).ty.Contents (Elt F) :=
  (win0_0.blk (0 : Fin 1)).view.read (Elt F) (m ((c : Thread nD τ).loc main_arg0))

/-- Device `c`'s result after the run: the launch contents, its rows [256 (c / 2), +256) overwritten with the column
    half [256 (c / 2), +256) of its own block of `x`, the other rows with the same column half of `peer c`'s block. -/
def outAt (c : Dev nD) : Buf (Elt F) ((c : Thread nD τ).loc main_v1) :=
  (dstO (peer c)).view.write (Elt F)
    ((dstO c).view.write (Elt F) (m ((c : Thread nD τ).loc main_v1)) ((srcL c).view.read (Elt F) (xstg m c)) Finset.univ)
    ((srcR (peer c)).view.read (Elt F) (xstg m (peer c))) Finset.univ

omit [FloatOps F] in
/-- On the rows `peer c` writes, the result is what that transfer writes over anything. -/
theorem outAt_recv (c : Dev nD) (fd : Buf (Elt F) ((c : Thread nD τ).loc main_v1)) :
    ∀ i ∈ (dstO (peer c)).view.set,
      (dstO (peer c)).view.write (Elt F) fd ((srcR (peer c)).view.read (Elt F) (xstg m (peer c))) Finset.univ i = outAt m c i :=
  fun i hi => Cert.Lib.write_univ_congr_of_mem_set _ _ _ _ hi

omit [FloatOps F] in
/-- On the rows `c` writes itself, the result is what the local copy writes over anything. -/
theorem outAt_loc (c : Dev nD) (fd : Buf (Elt F) ((c : Thread nD τ).loc main_v1)) :
    ∀ i ∈ (dstO c).view.set,
      (dstO c).view.write (Elt F) fd ((srcL c).view.read (Elt F) (xstg m c)) Finset.univ i = outAt m c i := fun i hi => by
  unfold outAt
  have hn : i ∉ (dstO (peer c)).view.setOn Finset.univ := by
    rw [View.setOn_univ, ← compl_dst]; exact fun h => (Finset.mem_sdiff.mp h).2 hi
  rw [View.write_of_not_mem (v := (dstO (peer c)).view) _ _ _ hn]
  exact Cert.Lib.write_univ_congr_of_mem_set _ _ _ _ hi

/-! ## The points-to assertions of the halves -/

/-- Rows [256 (c / 2), +256) of device `d`'s result, at contents `f`. -/
def oPts (d c : Dev nD) (f : Buf (Elt F) ((d : Thread nD τ).loc main_v1)) : sProp 𝕄 :=
  (dstO c).view.loc (d : Thread nD τ) ↦[(dstO c).view.set]{fullShare} f
/-- The two column halves of device `c`'s staging buffer, at its block of `x`. -/
def xRPts (c : Dev nD) : sProp 𝕄 := (srcR c).view.loc (c : Thread nD τ) ↦[(srcR c).view.set]{fullShare} xstg m c
def xLPts (c : Dev nD) : sProp 𝕄 := (srcL c).view.loc (c : Thread nD τ) ↦[(srcL c).view.set]{fullShare} xstg m c

omit [FloatOps F] in
instance oPts_storable (d c : Dev nD) (f) : BI.Storable (upEmb : UEmb _ 𝕄) (oPts (F := F) d c f) := by unfold oPts; infer_instance
omit [FloatOps F] in
instance xRPts_storable (c : Dev nD) : BI.Storable (upEmb : UEmb _ 𝕄) (xRPts (F := F) m c) := by unfold xRPts; infer_instance
omit [FloatOps F] in
instance xLPts_storable (c : Dev nD) : BI.Storable (upEmb : UEmb _ 𝕄) (xLPts (F := F) m c) := by unfold xLPts; infer_instance

omit [FloatOps F] in
/-- A whole result array is its two row halves. -/
theorem out_split (c : Dev nD) (f : Buf (Elt F) ((c : Thread nD τ).loc main_v1)) :
    (((c : Thread nD τ).loc main_v1) ↦{fullShare} f : sProp 𝕄) ⊣⊢ iprop(oPts c c f ∗ oPts c (peer c) f) := by
  unfold oPts
  rw [← compl_dst c]
  exact BI.Region.is_split_subset (Finset.subset_univ _)

omit [FloatOps F] in
/-- A whole staging buffer is its two column halves. -/
theorem x_split (c : Dev nD) :
    (((c : Thread nD τ).loc cc0_stg0_0) ↦{fullShare} xstg m c : sProp 𝕄) ⊣⊢ iprop(xRPts m c ∗ xLPts m c) := by
  unfold xRPts xLPts
  rw [← compl_src c]
  exact BI.Region.is_split_subset (Finset.subset_univ _)

/-! ## The schedule -/

/-- What `peer c`'s signal hands `c`: the rows of `peer c`'s result that `c`'s transfer writes. -/
def barPay (c : Dev nD) : sProp 𝕄 := iprop(∃ f, oPts (peer c) c f)
/-- What `peer c`'s transfer hands `c`: the rows of `c`'s result it wrote. -/
def recvPay (c : Dev nD) : sProp 𝕄 := oPts c (peer c) (outAt m c)
/-- What the transfer returns to its issuer: its source half. -/
def sendPay (c : Dev nD) : sProp 𝕄 := xRPts m c
/-- What the local copy returns: the rows it wrote and its source half. -/
def locPay (c : Dev nD) : sProp 𝕄 := iprop(oPts c c (outAt m c) ∗ xLPts m c)

abbrev IsCell (g : GSem nD τ sig) : Prop :=
  g.1.2 = .tc ∧ (g.2 = .reg barS ∨ g.2 = .dma sendS.sem ∨ g.2 = .dma recvS.sem ∨ g.2 = .dma locS.sem)

/-- One round, one duty per cell: a barrier cell's of one unit, a DMA cell's of a block's credit. -/
def sched : Rounds.Schedule (GSem nD τ sig) Unit 𝕄 where
  duties g r := if r = 0 ∧ IsCell g then {()} else ∅
  unitless _ := False
  amount g _ _ := if g.2 = .reg barS then 1 else N
  payload g _ _ :=
    if g.2 = .reg barS then barPay g.1.1
    else if g.2 = .dma recvS.sem then recvPay m g.1.1
    else if g.2 = .dma sendS.sem then sendPay m g.1.1
    else if g.2 = .dma locS.sem then locPay m g.1.1
    else iprop(emp)
  amount_pos g _ _ _ := by
    by_cases h : g.2 = .reg barS
    · rw [if_pos h]; exact Nat.one_pos
    · rw [if_neg h]; exact N_pos

instance sched_payload_storable (g : GSem nD τ sig) (r : ℕ) (d : Unit) : BI.Storable (upEmb : UEmb _ 𝕄) ((sched (F := F) m).payload g r d) := by
  show BI.Storable upEmb (if g.2 = .reg barS then barPay g.1.1 else if g.2 = .dma recvS.sem then recvPay m g.1.1
    else if g.2 = .dma sendS.sem then sendPay m g.1.1 else if g.2 = .dma locS.sem then locPay m g.1.1 else iprop(emp))
  unfold barPay recvPay sendPay locPay
  (repeat' split) <;> infer_instance

section Sched
variable (c : Dev nD)

theorem send_ne_bar : (SemLoc.dma sendS.sem : SemLoc sig) ≠ .reg barS := fun h => by cases h
theorem recv_ne_bar : (SemLoc.dma recvS.sem : SemLoc sig) ≠ .reg barS := fun h => by cases h
theorem loc_ne_bar : (SemLoc.dma locS.sem : SemLoc sig) ≠ .reg barS := fun h => by cases h
theorem send_ne_recv : (SemLoc.dma sendS.sem : SemLoc sig) ≠ .dma recvS.sem := by decide
theorem loc_ne_recv : (SemLoc.dma locS.sem : SemLoc sig) ≠ .dma recvS.sem := by decide
theorem loc_ne_send : (SemLoc.dma locS.sem : SemLoc sig) ≠ .dma sendS.sem := by decide

omit [FloatOps F] in
theorem duties_bar : (sched (F := F) m).duties (barCell c) 0 = {()} := by dsimp only [sched]; exact if_pos ⟨rfl, rfl, .inl rfl⟩
omit [FloatOps F] in
theorem duties_send : (sched (F := F) m).duties (sendCell c) 0 = {()} := by dsimp only [sched]; exact if_pos ⟨rfl, rfl, .inr (.inl rfl)⟩
omit [FloatOps F] in
theorem duties_recv : (sched (F := F) m).duties (recvCell c) 0 = {()} := by dsimp only [sched]; exact if_pos ⟨rfl, rfl, .inr (.inr (.inl rfl))⟩
omit [FloatOps F] in
theorem duties_loc : (sched (F := F) m).duties (locCell c) 0 = {()} := by dsimp only [sched]; exact if_pos ⟨rfl, rfl, .inr (.inr (.inr rfl))⟩
omit [FloatOps F] in
theorem duties_later (g : GSem nD τ sig) : ∀ r, 1 ≤ r → (sched (F := F) m).duties g r = ∅ :=
  fun r hr => by dsimp only [sched]; rw [if_neg fun h => by omega]

omit [FloatOps F] in
theorem amount_bar (u : Unit) : (sched (F := F) m).amount (barCell c) 0 u = 1 := by dsimp only [sched]; exact if_pos rfl
omit [FloatOps F] in
theorem amount_send (u : Unit) : (sched (F := F) m).amount (sendCell c) 0 u = N := by dsimp only [sched]; exact if_neg send_ne_bar
omit [FloatOps F] in
theorem amount_recv (u : Unit) : (sched (F := F) m).amount (recvCell c) 0 u = N := by dsimp only [sched]; exact if_neg recv_ne_bar
omit [FloatOps F] in
theorem amount_loc (u : Unit) : (sched (F := F) m).amount (locCell c) 0 u = N := by dsimp only [sched]; exact if_neg loc_ne_bar

omit [FloatOps F] in
theorem expect_bar : (sched (F := F) m).expect (barCell c) 0 = 1 := by
  unfold Schedule.expect Schedule.amountOf; rw [duties_bar, Finset.sum_singleton, amount_bar]
omit [FloatOps F] in
theorem expect_send : (sched (F := F) m).expect (sendCell c) 0 = N := by
  unfold Schedule.expect Schedule.amountOf; rw [duties_send, Finset.sum_singleton, amount_send]
omit [FloatOps F] in
theorem expect_recv : (sched (F := F) m).expect (recvCell c) 0 = N := by
  unfold Schedule.expect Schedule.amountOf; rw [duties_recv, Finset.sum_singleton, amount_recv]
omit [FloatOps F] in
theorem expect_loc : (sched (F := F) m).expect (locCell c) 0 = N := by
  unfold Schedule.expect Schedule.amountOf; rw [duties_loc, Finset.sum_singleton, amount_loc]

omit [FloatOps F] in
theorem payload_bar (u : Unit) : (sched (F := F) m).payload (barCell c) 0 u = barPay c := by dsimp only [sched]; exact if_pos rfl
omit [FloatOps F] in
theorem payload_recv (u : Unit) : (sched (F := F) m).payload (recvCell c) 0 u = recvPay m c := by
  dsimp only [sched]; rw [if_neg recv_ne_bar, if_pos rfl]
omit [FloatOps F] in
theorem payload_send (u : Unit) : (sched (F := F) m).payload (sendCell c) 0 u = sendPay m c := by
  dsimp only [sched]; rw [if_neg send_ne_bar, if_neg send_ne_recv, if_pos rfl]
omit [FloatOps F] in
theorem payload_loc (u : Unit) : (sched (F := F) m).payload (locCell c) 0 u = locPay m c := by
  dsimp only [sched]; rw [if_neg loc_ne_bar, if_neg loc_ne_recv, if_neg loc_ne_send, if_pos rfl]

omit [FloatOps F] in
theorem rest_bar : bigSep ((sched (F := F) m).duties (barCell c) 0 \ ∅) (fun u => (sched (F := F) m).payload (barCell c) 0 u) = barPay c := by
  rw [Finset.sdiff_empty, duties_bar, bigSep_singleton, payload_bar]
omit [FloatOps F] in
theorem rest_send : bigSep ((sched (F := F) m).duties (sendCell c) 0 \ ∅) (fun u => (sched (F := F) m).payload (sendCell c) 0 u) = sendPay m c := by
  rw [Finset.sdiff_empty, duties_send, bigSep_singleton, payload_send]
omit [FloatOps F] in
theorem rest_recv : bigSep ((sched (F := F) m).duties (recvCell c) 0 \ ∅) (fun u => (sched (F := F) m).payload (recvCell c) 0 u) = recvPay m c := by
  rw [Finset.sdiff_empty, duties_recv, bigSep_singleton, payload_recv]
omit [FloatOps F] in
theorem rest_loc : bigSep ((sched (F := F) m).duties (locCell c) 0 \ ∅) (fun u => (sched (F := F) m).payload (locCell c) 0 u) = locPay m c := by
  rw [Finset.sdiff_empty, duties_loc, bigSep_singleton, payload_loc]

end Sched

end Cert.KernelIdealProof

end
-- ==== Proof.KernelIdealData.lean ====
/-
# What a device owes at launch, the levels of the cells, and the proof data of the one grid point

At launch device `c` owes `peer c`'s receive cell a block's credit (its transfer) and `peer c`'s barrier cell one unit
(its signal). It waits on its barrier cell while still owing the receive credit, so barrier cells sit below receive
cells; every other wait happens when nothing is owed.
-/
import proofs.«900017_g7700000000000018_dist_a2a_v7x_xy2x2_x_m256_n256_f32_1_alg».proof.Proof.KernelIdealSched

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## What each device owes at launch; the levels -/

def O₀ (c : Dev nD) : CellTallies nD τ sig Unit := tallyAt (recvCell (peer c)) () N + tallyAt (barCell (peer c)) () 1

def L (g : GSem nD τ sig) : Finset Unit := if g.1.2 = .tc then {()} else ∅
/-- Barrier cells at 1, receive cells at 2, every other cell (staging, send, local) at 0. -/
def lv (g : GSem nD τ sig) (_ : Unit) : ℕ := if g.2 = .reg barS then 1 else if g.2 = .dma recvS.sem then 2 else 0
theorem L_of_ne (g : GSem nD τ sig) (h : g.1.2 ≠ .tc) : L g = ∅ := if_neg h
theorem L_tc (c : Dev nD) (sm : SemLoc sig) : L ((c : Thread nD τ), sm) = {()} := if_pos rfl

theorem O₀_pos {c : Dev nD} {g : GSem nD τ sig} {u : Unit} (h : 0 < O₀ c g u) : g = recvCell (peer c) ∨ g = barCell (peer c) := by
  unfold O₀ at h
  rw [Pi.add_apply, Finsupp.add_apply, tallyAt_apply, tallyAt_apply] at h
  by_contra hn; rw [not_or] at hn
  rw [if_neg (fun h' => hn.1 h'.1), if_neg (fun h' => hn.2 h'.1)] at h
  exact Nat.lt_irrefl 0 h

omit [FloatOps F] in
/-- A wait on a DMA cell other than the receive cell is below everything a device owes at launch. -/
theorem mayWait_stage (c : Dev nD) (q : DmaSem sig) (hq : SemLoc.dma q ≠ .dma recvS.sem) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with rfl | rfl <;> exact Finset.mem_singleton_self _)
      (fun p hp => by rw [Finset.mem_singleton.mp hp]; dsimp only [lv]; rw [if_neg (fun h => by cases h), if_neg hq])
      (fun g u hg => by
        rcases O₀_pos hg with rfl | rfl
        · dsimp only [lv]; rw [if_neg recv_ne_bar, if_pos rfl]; decide
        · dsimp only [lv]; rw [if_pos rfl]; decide)
  · rw [MayWait_zero]; iintro -; iempintro

omit [FloatOps F] in
/-- At its barrier wait a device owes only `peer c`'s receive credit: a receive cell, above its barrier cell. -/
theorem mayWait_bar (c : Dev nD) : (levAts L lv : sProp 𝕄) ⊢ MayWait (c : Thread nD τ) (.reg barS) () (tallyAt (recvCell (peer c)) () N) :=
  MayOwe.of_cut (L := L) (lev := lv) 1 (fun p hp => by rw [Finset.mem_singleton.mp hp, L_tc]; exact Finset.mem_singleton_self _)
    (fun g u hg => by
      rw [tallyAt_apply] at hg
      by_cases h : g = recvCell (peer c) ∧ u = ()
      · rw [h.1, L_tc]; exact Finset.mem_singleton_self _
      · rw [if_neg h] at hg; exact absurd hg (Nat.lt_irrefl 0))
    (fun p hp => by rw [Finset.mem_singleton.mp hp]; dsimp only [lv]; rw [if_pos rfl])
    (fun g u hg => by
      rw [tallyAt_apply] at hg
      by_cases h : g = recvCell (peer c) ∧ u = ()
      · rw [h.1]; dsimp only [lv]; rw [if_neg recv_ne_bar, if_pos rfl]; decide
      · rw [if_neg h] at hg; exact absurd hg (Nat.lt_irrefl 0))

/-! ## The ghost state of a device and the proof data of its one grid point -/

/-- The cells' invariants device `c`'s body opens, under the names `K`: its own four, `peer c`'s barrier cell (its
    signal) and `peer c`'s receive cell (its transfer). -/
def invs (K : Dev nD × Fin 4 → ℕ) (c : Dev nD) : sProp 𝕄 :=
  iprop(cellInv ER (sched m) (K (c, 0)) (barCell c) ∗ cellInv ER (sched m) (K (c, 1)) (sendCell c) ∗ cellInv ER (sched m) (K (c, 2)) (recvCell c)
    ∗ cellInv ER (sched m) (K (c, 3)) (locCell c)
    ∗ cellInv ER (sched m) (K (peer c, 0)) (barCell (peer c)) ∗ cellInv ER (sched m) (K (peer c, 2)) (recvCell (peer c)))

instance invs_persistent (K : Dev nD × Fin 4 → ℕ) (c : Dev nD) : BI.Persistent (invs m K c) := by unfold invs; infer_instance

/-- The tokens of the duties device `c` pays: `peer c`'s barrier and receive duties, its own send and local duties. -/
def payToks (c : Dev nD) : sProp 𝕄 :=
  iprop(dutyTok ER (barCell (peer c)) 0 () ∗ dutyTok ER (recvCell (peer c)) 0 () ∗ dutyTok ER (sendCell c) 0 () ∗ dutyTok ER (locCell c) 0 ())

def ghost (K : Dev nD × Fin 4 → ℕ) (c : Dev nD) : sProp 𝕄 :=
  iprop(invs m K c
    ∗ atPos ER (barCell c) 0 ∅ 0 ∗ atPos ER (sendCell c) 0 ∅ 0 ∗ atPos ER (recvCell c) 0 ∅ 0 ∗ atPos ER (locCell c) 0 ∅ 0
    ∗ reached ER (barCell (peer c)) 0 ∗ reached ER (recvCell (peer c)) 0 ∗ reached ER (sendCell c) 0 ∗ reached ER (locCell c) 0
    ∗ payToks c)

/-- What a device's body starts from besides its buffers: the ghost state at some names, the credit to wait on its barrier
    and receive cells, and the level facts. -/
def start (c : Dev nD) : sProp 𝕄 :=
  iprop((∃ K, ghost m K c) ∗ cred (tallyAt (barCell c) () 1) ∗ cred (tallyAt (recvCell c) () N) ∗ levAts L lv)

/-- Before the point: that, and the result array at its launch contents. -/
def Φ₀ (c : Dev nD) : sProp 𝕄 := iprop(start m c ∗ (((c : Thread nD τ).loc main_v1) ↦{fullShare} m ((c : Thread nD τ).loc main_v1)))
/-- After the point: the result array at `outAt`, the three own cells closed at zero. -/
def Φ₁ (c : Dev nD) : sProp 𝕄 :=
  iprop((((c : Thread nD τ).loc main_v1) ↦{fullShare} outAt m c) ∗ semVal (sendCell c) 0 ∗ semVal (recvCell c) 0 ∗ semVal (locCell c) 0)

def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨_ + 1, h⟩ => absurd h (Nat.not_lt.2 (Nat.le_add_left _ _))
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

omit [FloatOps F] in
theorem bigSep_W (Φ : Fin cfg0.W → sProp 𝕄) : bigSep Finset.univ Φ = iprop(Φ (0 : Fin 1)) := bigSep_W0 Φ

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

end Cert.KernelIdealProof

end
-- ==== Proof.KernelIdealBody.lean ====
/-
# The body of one device, run symbolically from its start state to its end state

In program order: the signal to the column mate's barrier cell (handing over the rows of the own result the mate will
write), the wait on the own barrier cell (receiving the mate's rows), the transfer into those rows (paying the mate's
receive duty and the own send duty), the local copy and its wait, the waits on the send and receive cells, and the
three own cells closed. At the end both row halves of the result are held at `outAt` and both column halves of the
staging buffer at the device's block of `x`.
-/
import proofs.«900017_g7700000000000018_dist_a2a_v7x_xy2x2_x_m256_n256_f32_1_alg».proof.Proof.KernelIdealData

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

section Body

variable (K : Dev nD × Fin 4 → ℕ)

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop((ghost m K c ∗ cred (tallyAt (barCell c) () 1) ∗ cred (tallyAt (recvCell c) () N) ∗ levAts L lv
      ∗ (((c : Thread nD τ).loc main_v1) ↦{fullShare} m ((c : Thread nD τ).loc main_v1)))
    ∗ (dats m 0 c).owesAt () t0_0.castSucc
    ∗ (∃ d, stg c cc0_stg0_0 ((dats m 0 c).before (0 : Fin 1) t0_0 d)))

def bodyPost (c : Dev nD) : sProp 𝕄 :=
  iprop(Φ₁ m c ∗ (dats m 0 c).owesAt () t0_0.succ ∗ stg c cc0_stg0_0 (xstg m c))

/-- The transfer, addressed to a device `n` that is `peer c`: it pays the send duty of `c` with the source half and the
    receive duty of `peer c` with the rows written. -/
theorem wp_send_peer (c n : Dev nD) (hn : n = peer c) {hsc : (dstO c : Memref sig (Dev.tc n : Thread nD τ).2.kind .hbm S256x256 .f32).view.ref.isScScratch = false}
    {hsrc : (srcR c).view.WordExact} {hdst : (dstO c).view.WordExact}
    {hsem : DmaTarget.Typed .vmem (.dma recvS.sem) (.remote (Dev.tc n : Thread nD τ) (dstO c) (.dma sendS.sem) hsc)}
    {α : Type} {Q : α → sProp 𝕄} {k : PUnit → Prog (TpuEff nD τ sig (Elt F) Λ₀ .tc) α}
    (fn : Buf (Elt F) ((peer c : Thread nD τ).loc main_v1)) (W : Waits sig Unit) :
    iprop(cellInv ER (sched m) (K (c, 1)) (sendCell c) ∗ cellInv ER (sched m) (K (peer c, 2)) (recvCell (peer c))
        ∗ xRPts m c ∗ oPts (peer c) c fn
        ∗ owes (c : Thread nD τ) (tallyAt (recvCell (peer c)) () N) W
        ∗ dutyTok ER (sendCell c) 0 () ∗ reached ER (sendCell c) 0
        ∗ dutyTok ER (recvCell (peer c)) 0 () ∗ reached ER (recvCell (peer c)) 0)
      ⊢ iprop(((cred (tallyAt (sendCell c) () N) ∗ owes (c : Thread nD τ) 0 W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (srcR c) (.remote (Dev.tc n : Thread nD τ) (dstO c) (.dma sendS.sem) hsc) (.dma recvS.sem) hsrc hdst hsem) k) Q) := by
  subst hn
  unfold xRPts oPts
  have hr := outAt_recv m (peer c) fn
  rw [peer_peer] at hr
  exact Rounds.wp_send_pointsTo 𝒱₀ ER (sched m) (c : Thread nD τ) none (src := srcR c) (dst := dstO c) (c' := (peer c : Thread nD τ))
    (κ₁ := K (c, 1)) (κ₂ := K (peer c, 2)) (q := fullShare) (fs := xstg m c)
    (r₁ := 0) (r₂ := 0) (d₁ := ()) (d₂ := ()) (fd := fn)
    (by rw [duties_send]; exact Finset.mem_singleton_self _) (by rw [duties_recv]; exact Finset.mem_singleton_self _)
    () () N rfl (amount_send m c ()) (amount_recv m (peer c) ()) 0 (by rw [zero_add]) (W := W)
    (by rw [payload_send]; exact BI.Entails.refl _)
    (by rw [payload_recv]; unfold recvPay oPts; rw [peer_peer]; exact Entails.of_eq (BI.Region.is_congr hr))

set_option maxHeartbeats 1600000 in
/-- The body, from `bodyPre` to `bodyPost`, one rule per operation in program order. -/
theorem sound_body (c : Dev nD) (Kt : PUnit → sProp 𝕄) :
    iprop(bodyPre m K c ∗ (bodyPost m c -∗ Kt ⟨⟩))
      ⊢ wp frame (wpE (defs₀ (F := F)) 𝒱₀ c none) Set.univ
          (cc0_body xM (Memref.isWhole_whole _) oM (Memref.isWhole_whole _) cc0_scratch0 cc0_scratch1 cc0_scratch2) Kt := by
  simp only [cc0_body_eq_skeleton]; unfold cc0_body_skel
  simp only [k0_part1_eq_skeleton]; unfold k0_part1_skel
  simp only [semSignalWord, semWaitWord, Prog.lift, Prog.bind_op, Prog.bind_ret, Prog.pure_eq_ret, wp_deviceId]
  unfold bodyPre ghost invs payToks
  iintro ⟨⟨⟨⟨⟨#HIbar, #HIsnd, #HIrcv, #HIloc, #HIbarP, #HIrcvP⟩, HatB, HatS, HatV, HatL, #HrBP, #HrVP, #HrS, #HrL, HtBP, HtVP, HtS, HtL⟩, HcB, HcV, #Hlev, Hv⟩,
    Ho, ⟨%d0, %g0, %hg0, Hx⟩⟩, Hk⟩
  have hx : g0 = xstg m c := by rw [hg0]; unfold Dat.before; rw [if_pos (fetch0_0 t0_0)]; rfl
  subst hx
  unfold Dat.owesAt Pipeline.owesWithin
  icases Ho with ⟨%W, %hW, HO⟩
  rw [show (dats m 0 c).owed t0_0.castSucc = O₀ c from rfl]
  simp only [dev1_eq c, dev2_eq c]
  -- the result array in its two row halves, the staging buffer in its two column halves
  ihave Hv2 := (out_split (F := F) c (m ((c : Thread nD τ).loc main_v1))).1 $$ Hv
  icases Hv2 with ⟨HvC, HvP⟩
  ihave Hx2 := (x_split m c).1 $$ Hx
  icases Hx2 with ⟨HxR, HxL⟩
  -- the signal to the mate's barrier cell: the rows of the own result the mate's transfer writes go with it
  unfold O₀
  iapply (Rounds.wp_signal 𝒱₀ ER (sched m) (c : Thread nD τ) none (dst := (peer c : Thread nD τ)) (κ := K (peer c, 0))
      (d := ()) (by rw [duties_bar]; exact Finset.mem_singleton_self _) ((amount_bar m (peer c) ()).trans (by decide)) () (tallyAt (recvCell (peer c)) () N) rfl)
    $$ [HO HtBP HvP]
  · isplitr; · iexact HIbarP
    isplitl [HO]; · iexact HO
    isplitl [HtBP]; · iexact HtBP
    isplitl [HvP]
    · rw [payload_bar]; unfold barPay; rw [peer_peer]
      iexists (m ((c : Thread nD τ).loc main_v1)); iexact HvP
    · iexact HrBP
  iintro HO
  -- the wait on the own barrier cell, owing the mate's receive credit: the mate's rows come with it
  iapply (Rounds.wp_wait_rest_token 𝒱₀ ER (sched m) (c : Thread nD τ) none (κ := K (c, 0))
      (wpE_semWait_eq 𝒱₀ (c : Thread nD τ) none Set.univ) (Set.mem_univ _) () (O := tallyAt (recvCell (peer c)) () N) (W := W) (R := 0) (m := 0) (T := ∅)
      (by rw [expect_bar]; decide)) $$ [HcB HO HatB]
  · isplitr; · iexact HIbar
    isplitl [HcB]; · iexact HcB
    isplitl [HO]; · iexact HO
    isplitr; · iapply (mayWait_bar c); iexact Hlev
    iexact HatB
  iintro ⟨HO, HatB, -, Hpay⟩
  ihave Hp := (Entails.of_eq (rest_bar m c)) $$ Hpay
  unfold barPay
  icases Hp with ⟨%fn, HvN⟩
  -- the transfer into the mate's rows
  iapply (wp_send_peer m K c _ (dev2_eq c) fn (insert (SemLoc.reg barS, ()) W)) $$ [HxR HvN HO HtS HtVP]
  · isplitr; · iexact HIsnd
    isplitr; · iexact HIrcvP
    isplitl [HxR]; · iexact HxR
    isplitl [HvN]; · iexact HvN
    isplitl [HO]; · iexact HO
    isplitl [HtS]; · iexact HtS
    isplitr; · iexact HrS
    isplitl [HtVP]; · iexact HtVP
    iexact HrVP
  iintro ⟨HcS, HO⟩
  -- the local copy into the own rows
  unfold oPts xLPts
  iapply (Rounds.wp_copy_pointsTo 𝒱₀ ER (sched m) (c : Thread nD τ) none (src := srcL c) (dst := dstO c) (sem := .dma locS.sem)
      (q := fullShare) (fs := xstg m c) (fd := m ((c : Thread nD τ).loc main_v1)) (r := 0) (d := ()) (κ := K (c, 3))
      (by rw [duties_loc]; exact Finset.mem_singleton_self _) () N rfl (amount_loc m c ())
      (by rw [payload_loc]; unfold locPay oPts xLPts
          exact sep_mono_left (Entails.of_eq (BI.Region.is_congr (outAt_loc m c _))))) $$ [HxL HvC HtL]
  · isplitr; · iexact HIloc
    isplitl [HxL]; · iexact HxL
    isplitl [HvC]; · iexact HvC
    isplitl [HtL]; · iexact HtL
    iexact HrL
  iintro HcL
  -- the wait on the local cell: the own rows written, the source half back
  iapply (Rounds.wp_wait_rest_token 𝒱₀ ER (sched m) (c : Thread nD τ) none (κ := K (c, 3))
      (wpE_waitDma2_eq 𝒱₀ (c : Thread nD τ) none Set.univ) (Set.mem_univ _) () (O := 0) (W := insert (SemLoc.reg barS, ()) W) (R := 0) (m := 0) (T := ∅)
      (by rw [Nat.zero_add, expect_loc])) $$ [HcL HO HatL]
  · isplitr; · iexact HIloc
    isplitl [HcL]; · iexact HcL
    isplitl [HO]; · iexact HO
    isplitr; · rw [MayWait_zero]; iempintro
    iexact HatL
  iintro ⟨HO, HatL, -, Hpay⟩
  ihave HpL := (Entails.of_eq (rest_loc m c)) $$ Hpay
  unfold locPay
  icases HpL with ⟨HvC, HxL⟩
  -- the wait on the send cell: the other source half back
  iapply (Rounds.wp_wait_rest_token 𝒱₀ ER (sched m) (c : Thread nD τ) none (κ := K (c, 1))
      (wpE_waitDma2_eq 𝒱₀ (c : Thread nD τ) none Set.univ) (Set.mem_univ _) () (O := 0)
      (W := insert (SemLoc.dma locS.sem, ()) (insert (SemLoc.reg barS, ()) W)) (R := 0) (m := 0) (T := ∅)
      (by rw [Nat.zero_add, expect_send])) $$ [HcS HO HatS]
  · isplitr; · iexact HIsnd
    isplitl [HcS]; · iexact HcS
    isplitl [HO]; · iexact HO
    isplitr; · rw [MayWait_zero]; iempintro
    iexact HatS
  iintro ⟨HO, HatS, -, Hpay⟩
  ihave HxR := (Entails.of_eq (rest_send m c)) $$ Hpay
  unfold sendPay
  -- the wait on the receive cell: the mate's rows of the own result, written
  iapply (Rounds.wp_wait_rest_token 𝒱₀ ER (sched m) (c : Thread nD τ) none (κ := K (c, 2))
      (wpE_waitDma2_eq 𝒱₀ (c : Thread nD τ) none Set.univ) (Set.mem_univ _) () (O := 0)
      (W := insert (SemLoc.dma sendS.sem, ()) (insert (SemLoc.dma locS.sem, ()) (insert (SemLoc.reg barS, ()) W))) (R := 0) (m := 0) (T := ∅)
      (by rw [Nat.zero_add, expect_recv])) $$ [HcV HO HatV]
  · isplitr; · iexact HIrcv
    isplitl [HcV]; · iexact HcV
    isplitl [HO]; · iexact HO
    isplitr; · rw [MayWait_zero]; iempintro
    iexact HatV
  iintro ⟨HO, HatV, -, Hpay⟩
  ihave HvP := (Entails.of_eq (rest_recv m c)) $$ Hpay
  unfold recvPay
  -- the three own cells close: their counters at zero are the device's again
  imod (Rounds.cell_close ER (sched m) (Set.mem_univ (K (c, 1))) (fun h => h) (R := 0 + 1) (duties_later m (sendCell c))) $$ [HatS] with HzS
  · isplitr; · iexact HIsnd
    iexact HatS
  imod (Rounds.cell_close ER (sched m) (Set.mem_univ (K (c, 2))) (fun h => h) (R := 0 + 1) (duties_later m (recvCell c))) $$ [HatV] with HzV
  · isplitr; · iexact HIrcv
    iexact HatV
  imod (Rounds.cell_close ER (sched m) (Set.mem_univ (K (c, 3))) (fun h => h) (R := 0 + 1) (duties_later m (locCell c))) $$ [HatL] with HzL
  · isplitr; · iexact HIloc
    iexact HatL
  rw [wp_ret]; imodintro
  iapply Hk
  unfold bodyPost Φ₁ Dat.owesAt Pipeline.owesWithin
  rw [show (dats m 0 c).owed t0_0.succ = 0 from rfl]
  isplitl [HvC HvP HzS HzV HzL]
  · isplitl [HvC HvP]
    · iapply (out_split (F := F) c (outAt m c)).2
      isplitl [HvC] <;> iassumption
    isplitl [HzS]; · iexact HzS
    isplitl [HzV]; · iexact HzV
    iexact HzL
  isplitl [HO]
  · iexists (insert (SemLoc.dma recvS.sem, ()) (insert (SemLoc.dma sendS.sem, ()) (insert (SemLoc.dma locS.sem, ()) (insert (SemLoc.reg barS, ()) W))))
    isplitr; · ipureintro; exact fun _ _ => Or.inl trivial
    iexact HO
  iexists _; isplitr; · (ipureintro; rfl)
  iapply (x_split m c).2
  isplitl [HxR] <;> iassumption

/-- What the point starts from, as the launch's loop hands it to the body. -/
def bodyPre' (c : Dev nD) : sProp 𝕄 :=
  iprop(Φ₀ m c ∗ (dats m 0 c).owesAt () t0_0.castSucc
    ∗ (∃ d, stg c cc0_stg0_0 ((dats m 0 c).before (0 : Fin 1) t0_0 d)))

set_option maxRecDepth 4000 in
/-- The library's body obligation on device `c`. -/
theorem body_obligation (c : Dev nD) : BodyObligation (dats (F := F) m 0 c) (defs₀ (F := F)) 𝒱₀ () Set.univ := fun t => by
  rw [fin_N0 t]
  rw [bigSep_W, bigSep_W]
  simp only [owns_whole_eq]
  show bodyPre' m c ⊢ wp frame (wpE (defs₀ (F := F)) 𝒱₀ c none) Set.univ
    (cc0_body xM (Memref.isWhole_whole _) oM (Memref.isWhole_whole _) cc0_scratch0 cc0_scratch1 cc0_scratch2) (fun _ => bodyPost m c)
  unfold bodyPre' Φ₀ start
  iintro ⟨⟨⟨⟨%K, Hg⟩, Hrest⟩, Hv⟩, Ho, Hx⟩
  iapply (sound_body m K c fun _ => bodyPost m c)
  unfold bodyPre
  isplitr []
  · isplitl [Hg Hrest Hv]
    · isplitl [Hg]; · iexact Hg
      icases Hrest with ⟨H1, H2, H3⟩
      isplitl [H1]; · iexact H1
      isplitl [H2]; · iexact H2
      isplitl [H3]; · iexact H3
      iexact Hv
    isplitl [Ho]; · iexact Ho
    iexact Hx
  · iintro H; iexact H

end Body

end Cert.KernelIdealProof

end
-- ==== Proof.KernelIdealRun.lean ====
/-
# The launch: from every device's body to the run of the whole mesh

The protocol's cells (four a device) are allocated for all devices at once, because a device's barrier and receive
cells are paid by its column mate; the duty tokens of a device's barrier and receive cells are dealt to its mate, by
`peer` as a permutation of the devices. The launch credit of a cell is what the devices together owe it at launch:
one unit for a barrier cell, a block's credit for a receive cell, both owed by the mate.
The run's post names each device's result array (`outAt`) and says its argument array is unchanged.
-/
import proofs.«900017_g7700000000000018_dist_a2a_v7x_xy2x2_x_m256_n256_f32_1_alg».proof.Proof.KernelIdealBody

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (ρ : Dev nD → PrngReg)

theorem ownSemFacts : Pipeline.OwnSemFacts cfg0.spec osem := by decide

theorem share_eq (c : Dev nD) (w : Fin cfg0.W) : (dats m 0 c).share w = fullShare := by unfold Dat.share; split <;> rfl

theorem kcell_injective : Function.Injective (kcell : Dev nD × Fin 4 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := by fin_cases k <;> fin_cases k' <;> first | rfl | exact absurd h2 (by decide)
  subst this; rfl
def protoCells : Finset (GSem nD τ sig) := Finset.univ.map ⟨kcell, kcell_injective⟩
def protoToks : Finset (GSem nD τ sig × ℕ × Unit) :=
  Finset.univ.map ⟨fun ck : Dev nD × Fin 4 => (kcell ck, 0, ()), fun _ _ h => kcell_injective (congrArg Prod.fst h)⟩

def u₀ : UU := (initOf (Pipeline.cells cfgs cellOf_inj) (Pipeline.launchToks cfgs cellOf_inj), initOf protoCells protoToks)

/-- The duty tokens of device `c`'s own cells. -/
def toks (c : Dev nD) : sProp 𝕄 :=
  iprop(dutyTok ER (barCell c) 0 () ∗ dutyTok ER (sendCell c) 0 () ∗ dutyTok ER (recvCell c) 0 () ∗ dutyTok ER (locCell c) 0 ())

/-- What the launch element deals device `c`. -/
def G (c : Dev nD) : sProp 𝕄 :=
  iprop((bigSep Finset.univ fun k : Fin 4 => roundState ER (sched m) (kcell (c, k)) 0)
    ∗ (bigSep Finset.univ fun k : Fin 4 => iprop(atPos ER (kcell (c, k)) 0 ∅ 0 ∗ reached ER (kcell (c, k)) 0)) ∗ toks c)
/-- What the global step makes of it. -/
def G' (c : Dev nD) : sProp 𝕄 := iprop(∃ K, ghost m K c)

omit [FloatOps F] in
theorem bigSep_fin3 (Φ : Fin 3 → sProp 𝕄) : bigSep Finset.univ Φ = iprop(Φ 0 ∗ Φ 1 ∗ Φ 2) := bigSep_univ_eq_bigSepL [0, 1, 2] (by decide) (by decide) Φ
omit [FloatOps F] in
theorem bigSep_fin4 (Φ : Fin 4 → sProp 𝕄) : bigSep Finset.univ Φ = iprop(Φ 0 ∗ Φ 1 ∗ Φ 2 ∗ Φ 3) := bigSep_univ_eq_bigSepL [0, 1, 2, 3] (by decide) (by decide) Φ

omit [FloatOps F] in
theorem fund_proto : BI.own (ER (initOf protoCells protoToks)) ⊢ (|==> bigSep Finset.univ (G m) : sProp 𝕄) := by
  have hX (Φ : GSem nD τ sig → sProp 𝕄) : bigSep protoCells Φ = bigSep Finset.univ fun c : Dev nD => bigSep Finset.univ fun k : Fin 4 => Φ (kcell (c, k)) := by
    unfold protoCells; rw [bigSep_map, bigSep_univ_prod]; rfl
  have hT : bigSep protoToks (fun x => (dutyTok ER x.1 x.2.1 x.2.2 : sProp 𝕄)) = bigSep Finset.univ fun c : Dev nD => toks c := by
    unfold protoToks; rw [bigSep_map, bigSep_univ_prod]
    exact bigSep_congr fun c _ => by unfold toks; rw [bigSep_fin4]; rfl
  iintro HX
  imod (Rounds.fund ER (sched m) protoCells protoToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The send, receive and local semaphores are the kernel's own three; -/
theorem ownSems0_eq (c : Dev nD) : (Pipeline.ownSems0 (Ix := Unit) (Name := ℕ) (U := UU) (Lvl := ℕ) (Val := Elt F) (τ := τ) osem c : sProp 𝕄)
    = iprop(semVal (sendCell c) 0 ∗ semVal (recvCell c) 0 ∗ semVal (locCell c) 0) := by
  rw [Pipeline.ownSems0_eq_of_list c osem [0, 1, 2] (by decide) (by decide)]; rfl
omit [FloatOps F] in
/-- the barrier semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 4 => semVal (kcell (c, k)) 0 : sProp 𝕄) := by
  rw [ownSems0_eq, unscopedSems0_eq, bigSep_fin4]
  iintro ⟨⟨HS, HV, HL⟩, HB⟩
  isplitl [HB]; · iexact HB
  isplitl [HS]; · iexact HS
  isplitl [HV] <;> iassumption

omit [FloatOps F] in
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 4 => semVal (kcell (c, k)) 0) ∗ bigSep Finset.univ fun k : Fin 4 => roundState ER (sched m) (kcell (c, k)) 0)
      ⊢ (|={Set.univ}=> bigSep Finset.univ fun k => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

def records (K : Dev nD × Fin 4 → ℕ) : sProp 𝕄 :=
  iprop((bigSep Finset.univ fun ck : Dev nD × Fin 4 => cellInv ER (sched m) (K ck) (kcell ck))
    ∗ bigSep Finset.univ fun ck : Dev nD × Fin 4 => reached ER (kcell ck) 0)

instance records_persistent (K : Dev nD × Fin 4 → ℕ) : BI.Persistent (records m K) := by unfold records; infer_instance

omit [FloatOps F] in
theorem inv_at (K : Dev nD × Fin 4 → ℕ) (ck : Dev nD × Fin 4) :
    (bigSep Finset.univ fun ck : Dev nD × Fin 4 => (cellInv ER (sched m) (K ck) (kcell ck) : sProp 𝕄)) ⊢ cellInv ER (sched m) (K ck) (kcell ck) :=
  bigSep_elim (Finset.mem_univ ck)
omit [FloatOps F] in
theorem reached_at (ck : Dev nD × Fin 4) :
    (bigSep Finset.univ fun ck : Dev nD × Fin 4 => (reached ER (kcell ck) 0 : sProp 𝕄)) ⊢ reached ER (kcell ck) 0 :=
  bigSep_elim (Finset.mem_univ ck)

/-- What stays with device `c`: its positions, and the tokens of the duties it pays. -/
def linear (c : Dev nD) : sProp 𝕄 :=
  iprop((atPos ER (barCell c) 0 ∅ 0 ∗ atPos ER (sendCell c) 0 ∅ 0 ∗ atPos ER (recvCell c) 0 ∅ 0 ∗ atPos ER (locCell c) 0 ∅ 0) ∗ payToks c)

omit [FloatOps F] in
theorem ghost_intro (K : Dev nD × Fin 4 → ℕ) (c : Dev nD) : iprop(records m K ∗ linear c) ⊢ G' m c := by
  unfold records linear G' ghost invs
  iintro ⟨⟨#HI, #HR⟩, ⟨HaB, HaS, HaV, HaL⟩, Htk⟩
  iexists K
  isplitr
  · isplitr; · iapply (inv_at m K (c, 0)); iexact HI
    isplitr; · iapply (inv_at m K (c, 1)); iexact HI
    isplitr; · iapply (inv_at m K (c, 2)); iexact HI
    isplitr; · iapply (inv_at m K (c, 3)); iexact HI
    isplitr; · iapply (inv_at m K (peer c, 0)); iexact HI
    iapply (inv_at m K (peer c, 2)); iexact HI
  isplitl [HaB]; · iexact HaB
  isplitl [HaS]; · iexact HaS
  isplitl [HaV]; · iexact HaV
  isplitl [HaL]; · iexact HaL
  isplitr; · iapply (reached_at (F := F) (peer c, 0)); iexact HR
  isplitr; · iapply (reached_at (F := F) (peer c, 2)); iexact HR
  isplitr; · iapply (reached_at (F := F) (c, 1)); iexact HR
  isplitr; · iapply (reached_at (F := F) (c, 3)); iexact HR
  iexact Htk

omit [FloatOps F] in
/-- The barrier and receive tokens swapped within each mesh column. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep', bigSep_sep', bigSep_sep',
    bigSep_univ_equiv swap (fun c : Dev nD => (dutyTok ER (barCell c) 0 () : sProp 𝕄)),
    bigSep_univ_equiv swap (fun c : Dev nD => (dutyTok ER (recvCell c) 0 () : sProp 𝕄))]
  iintro ⟨HB, HS, HV, HL⟩
  isplitl [HB]; · iexact HB
  isplitl [HV]; · iexact HV
  isplitl [HS]; · iexact HS
  iexact HL

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] in
theorem regroup :
    (bigSep Finset.univ fun c : Dev nD => iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 4 => iprop(∃ κ : ℕ, cellInv ER (sched m) κ (kcell ck))),
    bigSep_congr (s := Finset.univ) (fun (c : Dev nD) _ => bigSep_sep' Finset.univ (fun k : Fin 4 => (atPos ER (kcell (c, k)) 0 ∅ 0 : sProp 𝕄)) (fun k => reached ER (kcell (c, k)) 0)),
    bigSep_sep', ← bigSep_univ_prod (fun ck : Dev nD × Fin 4 => (reached ER (kcell ck) 0 : sProp 𝕄))]
  iintro ⟨HI, ⟨Hat, #HR⟩, Htok⟩
  ihave HK := (BI.bigSep_exists_pi Finset.univ (fun (ck : Dev nD × Fin 4) (κ : ℕ) => (cellInv ER (sched m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun k : Fin 4 => (atPos ER (kcell (c, k)) 0 ∅ 0 : sProp 𝕄)) payToks).symm).trans
      (bigSep_mono fun c _ => show _ ⊢ linear c from Entails.of_eq (by unfold linear; rw [bigSep_fin4])))
    isplitl [Hat]; · iexact Hat
    iexact Htk

omit [FloatOps F] in
/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ### The launch credit -/

omit [FloatOps F] in
theorem cell_eq_iff {a b : Dev nD} {sm : SemLoc sig} : Iff ((((a : Thread nD τ), sm) : GSem nD τ sig) = ((b : Thread nD τ), sm)) (a = b) :=
  ⟨fun h => Fin.ext (congrArg (fun g : GSem nD τ sig => g.1.1.val) h), fun h => h ▸ rfl⟩
omit [FloatOps F] in
theorem eq_peer_iff {d c : Dev nD} : Iff (peer d = c) (d = peer c) :=
  ⟨fun h => by rw [← h, peer_peer], fun h => by rw [h, peer_peer]⟩

omit [FloatOps F] in
/-- What device `d` owes device `c`'s barrier cell: a unit if it is `c`'s mate. -/
theorem owed_bar (d c : Dev nD) : O₀ d (barCell c) () = if d = peer c then 1 else 0 := by
  unfold O₀
  rw [Pi.add_apply, Finsupp.add_apply, tallyAt_ne_cell (fun h => recv_ne_bar (congrArg Prod.snd h).symm), tallyAt_apply, Finsupp.zero_apply, Nat.zero_add]
  by_cases h : d = peer c
  · subst h; rw [peer_peer, if_pos ⟨rfl, rfl⟩, if_pos rfl]
  · rw [if_neg (fun ⟨h1, _⟩ => h (eq_peer_iff.mp (cell_eq_iff.mp h1).symm)), if_neg h]
omit [FloatOps F] in
/-- What device `d` owes device `c`'s receive cell: a block's credit if it is `c`'s mate. -/
theorem owed_recv (d c : Dev nD) : O₀ d (recvCell c) () = if d = peer c then N else 0 := by
  unfold O₀
  rw [Pi.add_apply, Finsupp.add_apply, tallyAt_apply, tallyAt_ne_cell (fun h => recv_ne_bar (congrArg Prod.snd h)), Finsupp.zero_apply, Nat.add_zero]
  by_cases h : d = peer c
  · subst h; rw [peer_peer, if_pos ⟨rfl, rfl⟩, if_pos rfl]
  · rw [if_neg (fun ⟨h1, _⟩ => h (eq_peer_iff.mp (cell_eq_iff.mp h1).symm)), if_neg h]

omit [FloatOps F] in
theorem launch_bar (c : Dev nD) :
    tallyOn (barCell c) (launchCredit (Pipeline.owing O₀) 0 (barCell c)) = (tallyAt (barCell c) () 1 : CellTallies nD τ sig Unit) := by
  unfold tallyAt; refine congrArg _ (Finsupp.ext fun u => ?_); cases u
  rw [Pipeline.launchCredit_owing, Finsupp.single_eq_same, Finset.sum_congr rfl fun d _ => owed_bar d c, Finset.sum_ite_eq' Finset.univ (peer c) fun _ => 1,
    if_pos (Finset.mem_univ _)]
omit [FloatOps F] in
theorem launch_recv (c : Dev nD) :
    tallyOn (recvCell c) (launchCredit (Pipeline.owing O₀) 0 (recvCell c)) = (tallyAt (recvCell c) () N : CellTallies nD τ sig Unit) := by
  unfold tallyAt; refine congrArg _ (Finsupp.ext fun u => ?_); cases u
  rw [Pipeline.launchCredit_owing, Finsupp.single_eq_same, Finset.sum_congr rfl fun d _ => owed_recv d c, Finset.sum_ite_eq' Finset.univ (peer c) fun _ => N,
    if_pos (Finset.mem_univ _)]

omit [FloatOps F] in
theorem creds (c : Dev nD) : (Pipeline.launchCred O₀ c : sProp 𝕄) ⊢ iprop(cred (tallyAt (barCell c) () 1) ∗ cred (tallyAt (recvCell c) () N)) := by
  unfold Pipeline.launchCred
  rw [bigSep_univ_at _ (SemLoc.reg barS), launch_bar]
  refine sep_mono_right ?_
  rw [← launch_recv]
  exact bigSep_elim (Finset.mem_erase.mpr ⟨recv_ne_bar, Finset.mem_univ _⟩)

/-! ### The launch theorem's side conditions -/

/-- What the exit hands back for reading: the result array at `outAt`. -/
def Yout (c : Dev nD) : sProp 𝕄 := (((c : Thread nD τ).loc main_v1) ↦{fullShare} outAt m c)

omit [FloatOps F] in
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(Φ₀ m c ∗ emp) := by
  rw [Pipeline.unscopedRestP_none, unscopedRest0_eq]
  iintro ⟨Hv, Hlev, Hcr, -, HG⟩
  ihave Hc := (creds (F := F) c) $$ Hcr
  icases Hc with ⟨H1, HN⟩
  imodintro
  unfold Φ₀ start G'
  isplitl
  · isplitl [HG H1 HN Hlev]
    · isplitl [HG]; · iexact HG
      isplitl [H1]; · iexact H1
      isplitl [HN]; · iexact HN
      iexact Hlev
    · iexact Hv
  · iempintro

theorem phi0_intro (c : Dev nD) :
    iprop(Φ₀ m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl]
  iintro ⟨Hs, -, -⟩
  iexact Hs

theorem phi1_exit (c : Dev nD) :
    (dats m 0 c).Φ (Fin.last cfg0.N) ⊢ iprop(Yout m c ∗ Pipeline.ownSems0 osem c ∗ Pipeline.scopedRest cfg0.spec c) := by
  rw [show (dats m 0 c).Φ (Fin.last cfg0.N) = Φ₁ m c from rfl, scopedRest0_eq, ownSems0_eq]
  unfold Φ₁ Yout
  iintro ⟨Hr, HzS, HzV, HzL⟩
  isplitl [Hr]; · iexact Hr
  isplitl [HzS HzV HzL]
  · isplitl [HzS]; · iexact HzS
    isplitl [HzV] <;> iassumption
  iempintro

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-! ### The run -/

set_option maxRecDepth 8000 in
/-- At the compiled mesh of four devices, for any float values, from any memory with zero counters: every weakly fair
    execution of @main — the two devices of each mesh column shaking hands on the barrier semaphore, exchanging halves
    and copying their own — terminates, nothing faults, and every final state has each device's result array at `outAt`
    and its argument array unchanged. -/
theorem run_main : θ_run defs (onTc (τ := τ) (main (F := F))) ⟨m, fun _ => 0, ρ⟩
    (fun r => ∀ c : Dev nD, r.2.mem ((c : Thread nD τ).loc main_v1) = outAt m c
      ∧ r.2.mem ((c : Thread nD τ).loc main_arg0) = m ((c : Thread nD τ).loc main_arg0)) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_proto m) $$ HX with HG
      imodintro
      isplitl [HP] <;> iassumption)
    (hglob := glob m)
    (hA := fun _ _ => rfl) (hpf := fun _ k => k.elim0)
    (X := Φ₀ m) (Y := Yout m) (Z := fun _ => iprop(emp))
    (hX := start_intro m ρ) (hin := phi0_intro m) (hout := phi1_exit m)
    (QY := fun c s => s.mem ((c : Thread nD τ).loc main_v1) = outAt m c)
    (hY := fun c s' => by
      unfold Yout
      iintro ⟨Hy, -, HSI⟩
      icombine HSI Hy gives %hx
      imodintro
      isplitr; · ipureintro; exact Buf.eq_of_forall_mem_univ hx
      iexact HSI)
    (hQ := fun s h c => ⟨(h c).2.2, ((h c).1 0).trans ((dats m 0 c).arrAt_in (0 : Fin 1) rfl _)⟩)

end Cert.KernelIdealProof

end
-- ==== Proof.KernelIdealValue.lean ====
/-
# The result array, index by index

Entry (r, j) of device `c`'s result is entry (r, 256 (c / 2) + j) of the whole 512 × 512 array: for r among the device's
own rows it was copied from the device's own block of `x`, for the other rows it came from the column mate's block,
and in both cases the block holds those rows of the whole array. That is the column block c / 2 of the whole array,
which is what the identity reference's result, cut along its second dimension over the first mesh axis, assigns the
device.
-/
import proofs.«900017_g7700000000000018_dist_a2a_v7x_xy2x2_x_m256_n256_f32_1_alg».proof.Proof.KernelIdealSched
import Idealize.ShloMosaic.Lib.Layout
import Idealize.ShloMosaic.Lib.ValueIdx

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

abbrev S512x512 : Shape := ⟨2, ![512, 512]⟩

open Idealize.ShloMosaic.ValueIdx Idealize.ShloMosaic.Layout

omit [FloatOps F] in
/-- The staging buffer holds the device's argument array, entry by entry. -/
theorem xstg_eq (c : Dev nD) : xstg m c = m ((c : Thread nD τ).loc main_arg0) := by
  have hz0 : (fun a => (win0_0.index (0 : Fin 1)) a * main_arg0.ty.shape.size a) = fun _ => 0 :=
    funext fun a => by fin_cases a <;> decide
  have hr0 := fun f => Memref.read_access_unit_zero (Elt F) main_arg0 hz0 (fun a => by fin_cases a <;> decide) f
  unfold xstg
  rw [hr0]

omit [FloatOps F] in
/-- An entry among the device's own rows is the local copy's source entry. -/
theorem outAt_own (c : Dev nD) (x : S256x256.Idx) : outAt m c ((dstO c).view.emb x) = xstg m c ((srcL c).view.emb x) := by
  rw [← outAt_loc m c (m _) _ ((dstO c).view.emb_mem_set x), View.write_emb_of_mem _ _ (Finset.mem_univ x), View.read_apply]
  simp only [cast_cast, cast_eq]

omit [FloatOps F] in
/-- An entry among the other rows is the mate's transfer's source entry. -/
theorem outAt_mate (c : Dev nD) (x : S256x256.Idx) :
    outAt m c ((dstO (peer c)).view.emb x) = xstg m (peer c) ((srcR (peer c)).view.emb x) := by
  rw [← outAt_recv m c (m _) _ ((dstO (peer c)).view.emb_mem_set x), View.write_emb_of_mem _ _ (Finset.mem_univ x), View.read_apply]
  simp only [cast_cast, cast_eq]

theorem dst_emb0 (c : Dev nD) (x : S256x256.Idx) : (((dstO c).view.emb x) 0 : ℕ) = 256 * (c.val / 2) + (x 0 : ℕ) := by
  show (k0_off1 c) 0 + 1 * (x 0 : ℕ) = _
  rw [k0_off1_eq]; simp
theorem dst_emb1 (c : Dev nD) (x : S256x256.Idx) : (((dstO c).view.emb x) 1 : ℕ) = (x 1 : ℕ) := by
  show (k0_off1 c) 1 + 1 * (x 1 : ℕ) = _
  rw [k0_off1_eq]; simp
theorem srcL_emb0 (c : Dev nD) (x : S256x256.Idx) : (((srcL c).view.emb x) 0 : ℕ) = (x 0 : ℕ) := by
  show (k0_off3 c) 0 + 1 * (x 0 : ℕ) = _
  rw [k0_off3_eq]; simp
theorem srcL_emb1 (c : Dev nD) (x : S256x256.Idx) : (((srcL c).view.emb x) 1 : ℕ) = 256 * (c.val / 2) + (x 1 : ℕ) := by
  show (k0_off3 c) 1 + 1 * (x 1 : ℕ) = _
  rw [k0_off3_eq]; simp
theorem srcR_emb0 (c : Dev nD) (x : S256x256.Idx) : (((srcR c).view.emb x) 0 : ℕ) = (x 0 : ℕ) := by
  show (k0_off2 c) 0 + 1 * (x 0 : ℕ) = _
  rw [k0_off2_eq]; simp
theorem srcR_emb1 (c : Dev nD) (x : S256x256.Idx) : (((srcR c).view.emb x) 1 : ℕ) = 256 - 256 * (c.val / 2) + (x 1 : ℕ) := by
  show (k0_off2 c) 1 + 1 * (x 1 : ℕ) = _
  rw [k0_off2_eq]; simp

/-- The mesh coordinates the two layouts read: the row block of an argument cut along its first dimension and the column
    block of a result cut along its second are both the device's position on the first mesh axis, c / 2. -/
theorem lin_axis0 (c : Dev nD) : Layout.meshLin [2, 2] c.val [0] = c.val / 2 := by revert c; decide
theorem lin_none (c : Dev nD) : Layout.meshLin [2, 2] c.val [] = 0 := rfl

/-- Device `c`'s result is its block of the whole array `X` cut along the second dimension, when every device's
    argument is its block of `X` cut along the first. -/
theorem value (X : S512x512.Idx → Elt F .f32)
    (hag : ∀ c : Dev nD, m ((c : Thread nD τ).loc main_arg0)
      = Layout.blockN ⟨2, ![256, 512]⟩ ⟨2, ![512, 512]⟩ (Layout.meshBlock [2, 2] ![[0], []] c) X) (c : Dev nD) :
    outAt m c = Layout.blockN ⟨2, ![512, 256]⟩ ⟨2, ![512, 512]⟩ (Layout.meshBlock [2, 2] ![[], [0]] c) X := by
  funext i
  have hi0 : (i 0 : ℕ) < 512 := (i 0).isLt
  have hi1 : (i 1 : ℕ) < 256 := (i 1).isLt
  have hc := half_le c
  have hp := peer_half c
  by_cases h : 256 * (c.val / 2) ≤ (i 0 : ℕ) ∧ (i 0 : ℕ) < 256 * (c.val / 2) + 256
  · -- an own row: copied from the device's own block
    obtain ⟨x, hx0, hx1⟩ : ∃ x : S256x256.Idx, (x 0 : ℕ) = (i 0 : ℕ) - 256 * (c.val / 2) ∧ (x 1 : ℕ) = (i 1 : ℕ) :=
      ⟨ix2 (n0 := 256) (n1 := 256) ⟨(i 0 : ℕ) - 256 * (c.val / 2), by omega⟩ ⟨(i 1 : ℕ), hi1⟩, rfl, rfl⟩
    have hx : i = (dstO c).view.emb x := funext fun a => Fin.ext (by
      match a with
      | ⟨0, _⟩ => show (i 0 : ℕ) = (((dstO c).view.emb x) 0 : ℕ); rw [dst_emb0, hx0]; omega
      | ⟨1, _⟩ => show (i 1 : ℕ) = (((dstO c).view.emb x) 1 : ℕ); rw [dst_emb1, hx1])
    rw [hx, outAt_own, xstg_eq, hag c, Layout.blockN_apply, Layout.blockN_apply]
    refine congrArg X (funext fun a => Fin.ext ?_)
    match a with
    | ⟨0, _⟩ =>
      show Layout.meshLin [2, 2] c.val [0] * 256 + (((srcL c).view.emb x) 0 : ℕ)
        = Layout.meshLin [2, 2] c.val [] * 512 + (((dstO c).view.emb x) 0 : ℕ)
      rw [lin_axis0, lin_none, srcL_emb0, dst_emb0]; omega
    | ⟨1, _⟩ =>
      show Layout.meshLin [2, 2] c.val [] * 512 + (((srcL c).view.emb x) 1 : ℕ)
        = Layout.meshLin [2, 2] c.val [0] * 256 + (((dstO c).view.emb x) 1 : ℕ)
      rw [lin_axis0, lin_none, srcL_emb1, dst_emb1]; omega
  · -- a row of the other half: sent by the column mate from its block
    obtain ⟨x, hx0, hx1⟩ : ∃ x : S256x256.Idx, (x 0 : ℕ) = (i 0 : ℕ) - 256 * ((peer c).val / 2) ∧ (x 1 : ℕ) = (i 1 : ℕ) :=
      ⟨ix2 (n0 := 256) (n1 := 256) ⟨(i 0 : ℕ) - 256 * ((peer c).val / 2), by omega⟩ ⟨(i 1 : ℕ), hi1⟩, rfl, rfl⟩
    have hx : i = (dstO (peer c)).view.emb x := funext fun a => Fin.ext (by
      match a with
      | ⟨0, _⟩ => show (i 0 : ℕ) = (((dstO (peer c)).view.emb x) 0 : ℕ); rw [dst_emb0, hx0]; omega
      | ⟨1, _⟩ => show (i 1 : ℕ) = (((dstO (peer c)).view.emb x) 1 : ℕ); rw [dst_emb1, hx1])
    rw [hx, outAt_mate, xstg_eq, hag (peer c), Layout.blockN_apply, Layout.blockN_apply]
    refine congrArg X (funext fun a => Fin.ext ?_)
    match a with
    | ⟨0, _⟩ =>
      show Layout.meshLin [2, 2] (peer c).val [0] * 256 + (((srcR (peer c)).view.emb x) 0 : ℕ)
        = Layout.meshLin [2, 2] c.val [] * 512 + (((dstO (peer c)).view.emb x) 0 : ℕ)
      rw [lin_axis0, lin_none, srcR_emb0, dst_emb0]; omega
    | ⟨1, _⟩ =>
      show Layout.meshLin [2, 2] (peer c).val [] * 512 + (((srcR (peer c)).view.emb x) 1 : ℕ)
        = Layout.meshLin [2, 2] c.val [0] * 256 + (((dstO (peer c)).view.emb x) 1 : ℕ)
      rw [lin_axis0, lin_none, srcR_emb1, dst_emb1, hp]; omega

end Cert.KernelIdealProof

end
-- ==== Proof.lean ====
/-
# A 2 × 2 all-to-all against the identity: the five claims

Four devices on a 2 × 2 mesh each hold a 256 × 512 row block of a 512 × 512 array `x` (cut along its first dimension
over the first mesh axis). The kernel makes each device's result the 512 × 256 column block of `x` at the device's
position on that axis: the device copies the column half of its own rows locally and receives the same column half of
the other rows from the other device of its mesh column, after a handshake on the barrier semaphore. The reference is
the identity on the whole array, and its result is read cut along the second dimension over the first mesh axis: the
same column block. So the two agree entry by entry; no arithmetic is involved and the finiteness precondition is not
used.

The frames of the kernel and of its idealization are their runs with the value dropped (one proof text, read at the
word-level and at the ideal instance); the reference has no operation and its run is the empty one; the ideal pass
rewrote nothing.
-/
import proofs.«900017_g7700000000000018_dist_a2a_v7x_xy2x2_x_m256_n256_f32_1_alg».proof.Defs
import proofs.«900017_g7700000000000018_dist_a2a_v7x_xy2x2_x_m256_n256_f32_1_alg».proof.Proof.KernelRun
import proofs.«900017_g7700000000000018_dist_a2a_v7x_xy2x2_x_m256_n256_f32_1_alg».proof.Proof.KernelIdealRun
import proofs.«900017_g7700000000000018_dist_a2a_v7x_xy2x2_x_m256_n256_f32_1_alg».proof.Proof.KernelIdealValue
import proofs.«900017_g7700000000000018_dist_a2a_v7x_xy2x2_x_m256_n256_f32_1_alg».proof.Proof.Gen.ReferenceIdeal
import proofs.«900017_g7700000000000018_dist_a2a_v7x_xy2x2_x_m256_n256_f32_1_alg».proof.Proof.Gen.Pre_finite_inputs_Kernel
import proofs.«900017_g7700000000000018_dist_a2a_v7x_xy2x2_x_m256_n256_f32_1_alg».proof.Proof.Gen.Pre_finite_inputs_ReferenceIdeal
import Idealize.ShloMosaic.Lib.StableHlo.Run
import Idealize.ShloMosaic.Adequacy
import Idealize.ShloMosaic.Init

noncomputable section

namespace Cert.Proof

open Idealize.ShloMosaic Idealize.ShloMosaic.TcCoe Idealize.ShloMosaic.StableHlo Idealize.SL.Sem

/-! ## The reference: no operation, the result is the argument -/

theorem ref_scopedRefs : (Finset.univ.filter fun b : Ref Cert.ReferenceIdeal.sig .tc => b.isScoped) = ∅ := by decide
theorem ref_scopedSems : (Finset.univ.filter fun sm : SemLoc Cert.ReferenceIdeal.sig => sm.isScoped .tc) = ∅ := by decide

/-- Every execution of the reference's empty @main ends at once with the argument array as it was. -/
theorem ref_run {F : FTy → Type} [FloatOps F]
    (m : (ℓ : Loc Cert.ReferenceIdeal.nD Cert.ReferenceIdeal.τ Cert.ReferenceIdeal.sig) → Buf (Elt F) ℓ) (ρ : Dev Cert.ReferenceIdeal.nD → PrngReg) :
    θ_run (Cert.ReferenceIdeal.defs (F := F)) (onTc (τ := Cert.ReferenceIdeal.τ) (Cert.ReferenceIdeal.main (F := F))) ⟨m, fun _ => 0, ρ⟩
      (fun r => ∀ c : Dev Cert.ReferenceIdeal.nD,
        r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0)) :=
  (θ_run Cert.ReferenceIdeal.defs _ _).mono (fun _ h c => (h c Cert.ReferenceIdeal.main_arg0).trans rfl)
    (run_seq ref_scopedRefs ref_scopedSems Cert.ReferenceIdeal.defs Cert.ReferenceIdeal.main (fun _ => []) (fun _ => rfl) (fun _ => trivial) m ρ)

/-! ## The claims -/

theorem frame_k : Cert.frame_Kernel := fun m ρ _ =>
  (θ_run Cert.Kernel.defs _ _).mono (fun _ h c => (h c).2) (Cert.KernelProof.run_main (F := Bits) m ρ)

theorem frame_ki : Cert.frame_KernelIdeal := fun m ρ _ =>
  (θ_run Cert.KernelIdeal.defs _ _).mono (fun _ h c => (h c).2) (Cert.KernelIdealProof.run_main (F := Ideal) m ρ)

theorem frame_ri : Cert.frame_ReferenceIdeal := fun m ρ _ => ref_run (F := Ideal) m ρ

/-- The ideal pass rewrote no operation. -/
theorem preserves : Cert.preserves_Kernel_KernelIdeal := trivial

/-- The value the reference ends with is its argument, the whole array; each device's result ends as its column block of
    that array, because its argument was its row block of it. -/
theorem algebraic : Cert.algebraic_KernelIdeal_ReferenceIdeal := by
  intro m ρ m' ρ' _ hagree
  refine ⟨m' (((0 : Dev Cert.ReferenceIdeal.nD).tc : Thread Cert.ReferenceIdeal.nD Cert.ReferenceIdeal.τ).loc Cert.ReferenceIdeal.main_arg0), ?_, ?_⟩
  · exact (θ_run Cert.KernelIdeal.defs _ _).mono
      (fun _ h c => ⟨(h c).1.trans (Cert.KernelIdealProof.value (F := Ideal) m _ hagree c), (h c).2⟩)
      (Cert.KernelIdealProof.run_main (F := Ideal) m ρ)
  · exact (θ_run Cert.ReferenceIdeal.defs _ _).mono (fun _ h => ⟨h 0, h 0⟩) (ref_run (F := Ideal) m' ρ')

theorem claim : Cert.Claim :=
  ⟨Cert.Kernel.Gen.facts, Cert.KernelIdeal.Gen.facts, Cert.ReferenceIdeal.Gen.facts, Cert.Pre_finite_inputs_Kernel.Gen.facts,
    Cert.Pre_finite_inputs_ReferenceIdeal.Gen.facts, frame_k, frame_ki, frame_ri, preserves, algebraic⟩

end Cert.Proof

end
